-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x3200000 : Shape := ⟨2, ![2, 3200000]⟩
abbrev S3200000x2 : Shape := ⟨2, ![3200000, 2]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S3200000x2 : S_.BroadcastsInDim S3200000x2 (![] : Fin 0 → Fin S3200000x2.rank)
  reducesTo_S3200000x2_S_d0_1 : S3200000x2.ReducesTo [0, 1] S_

variable [Facts]

def fn {F : FTy → Type} [FloatOps F] (main_arg0 : FVec F S100000x6 .f32) (main_arg1 : FVec F S100000x6 .f32) (main_arg2 : IVec S2x3200000 32) (main_arg3 : FVec F S3200000x2 .f32) (main_arg4 : IVec S100000x6 1) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S100000x6 .f32 := Host.absf main_arg1
  let main_cst_0 : FVec F S_ .f32 := constant S_ .f32 0x7F800000#32
  let main_v5 : FVec F S100000x6 .f32 := broadcastInDim S100000x6 ![] bcast_S_S100000x6 main_cst_0
  let main_v6 : IVec S100000x6 1 := cmpf .olt main_v4 main_v5
  let main_c_1 : IVec S_ 1 := constantI S_ 1 1#1
  let main_v7 : IVec S_ 1 := (fun x v => Host.reduce IntOp.andi x v reducesTo_S100000x6_S_d0_1 h_S_) main_v6 main_c_1
  let main_v8 : IVec S_ 1 := andi main_v3 main_v7
  let main_v9 : FVec F S3200000x2 .f32 := Host.absf main_arg3
  let main_cst_2 : FVec F S_ .f32 := constant S_ .f32 0x7F800000#32
  let main_v10 : FVec F S3200000x2 .f32 := broadcastInDim S3200000x2 ![] bcast_S_S3200000x2 main_cst_2
  let main_v11 : IVec S3200000x2 1 := cmpf .olt main_v9 main_v10
  let main_c_3 : IVec S_ 1 := constantI S_ 1 1#1
  let main_v12 : IVec S_ 1 := (fun x v => Host.reduce IntOp.andi x v reducesTo_S3200000x2_S_d0_1 h_S_) main_v11 main_c_3
  let main_v13 : IVec S_ 1 := andi main_v8 main_v12
  main_v13
-- ==== Kernel.lean ====
abbrev S100000x6 : Shape := ⟨2, ![100000, 6]⟩
abbrev S2x3200000 : Shape := ⟨2, ![2, 3200000]⟩
abbrev S3200000x2 : Shape := ⟨2, ![3200000, 2]⟩
abbrev S100000x1 : Shape := ⟨2, ![100000, 1]⟩
abbrev S100000 : Shape := ⟨1, ![100000]⟩
abbrev S3200000x1 : Shape := ⟨2, ![3200000, 1]⟩
abbrev S3200000 : Shape := ⟨1, ![3200000]⟩
abbrev S1x3200000 : Shape := ⟨2, ![1, 3200000]⟩
abbrev S_ : Shape := ⟨0, ![]⟩
abbrev S25000x128 : Shape := ⟨2, ![25000, 128]⟩
abbrev S1000x128 : Shape := ⟨2, ![1000, 128]⟩
abbrev S100000x2 : Shape := ⟨2, ![100000, 2]⟩

abbrev nBuf : Space → Nat
  | .hbm => 98
  | .vmem => 12
  | .smem => 0
  | _ => 0

abbrev bufTy : (tb : Table) → Fin (tcTables nBuf tb) → BufTy
  | .hbm, ⟨0, _⟩ => ⟨S100000x6, .f32⟩
  | .hbm, ⟨1, _⟩ => ⟨S100000x6, .f32⟩
  | .hbm, ⟨2, _⟩ => ⟨S2x3200000, .i32⟩
  | .hbm, ⟨3, _⟩ => ⟨S3200000x2, .f32⟩
  | .hbm, ⟨4, _⟩ => ⟨S100000x6, .i1⟩
  | .hbm, ⟨5, _⟩ => ⟨S100000x6, .f32⟩
  | .hbm, ⟨6, _⟩ => ⟨S100000x1, .f32⟩
  | .hbm, ⟨7, _⟩ => ⟨S100000, .f32⟩
  | .hbm, ⟨8, _⟩ => ⟨S100000x1, .f32⟩
  | .hbm, ⟨9, _⟩ => ⟨S100000, .f32⟩
  | .hbm, ⟨10, _⟩ => ⟨S100000x1, .f32⟩
  | .hbm, ⟨11, _⟩ => ⟨S100000, .f32⟩
  | .hbm, ⟨12, _⟩ => ⟨S100000x1, .f32⟩
  | .hbm, ⟨13, _⟩ => ⟨S100000, .f32⟩
  | .hbm, ⟨14, _⟩ => ⟨S100000x1, .f32⟩
  | .hbm, ⟨15, _⟩ => ⟨S100000, .f32⟩
  | .hbm, ⟨16, _⟩ => ⟨S100000x1, .f32⟩
  | .hbm, ⟨17, _⟩ => ⟨S100000, .f32⟩
  | .hbm, ⟨18, _⟩ => ⟨S3200000x1, .f32⟩
  | .hbm, ⟨19, _⟩ => ⟨S3200000, .f32⟩
  | .hbm, ⟨20, _⟩ => ⟨S3200000x1, .f32⟩
  | .hbm, ⟨21, _⟩ => ⟨S3200000, .f32⟩
  | .hbm, ⟨22, _⟩ => ⟨S1x3200000, .i32⟩
  | .hbm, ⟨23, _⟩ => ⟨S3200000, .i32⟩
  | .hbm, ⟨24, _⟩ => ⟨S1x3200000, .i32⟩
  | .hbm, ⟨25, _⟩ => ⟨S3200000, .i32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S3200000, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000, .f32⟩
  | .hbm, ⟨54, _⟩ => ⟨S_, .i32⟩
  | .hbm, ⟨55, _⟩ => ⟨S3200000, .i32⟩
  | .hbm, ⟨56, _⟩ => ⟨S3200000, .i1⟩
  | .hbm, ⟨57, _⟩ => ⟨S_, .i32⟩
  | .hbm, ⟨58, _⟩ => ⟨S3200000, .i32⟩
  | .hbm, ⟨59, _⟩ => ⟨S3200000, .i32⟩
  | .hbm, ⟨60, _⟩ => ⟨S3200000, .i32⟩
  | .hbm, ⟨61, _⟩ => ⟨S3200000x1, .i32⟩
  | .hbm, ⟨62, _⟩ => ⟨S3200000, .f32⟩
  | .hbm, ⟨63, _⟩ => ⟨S3200000, .f32⟩
  | .hbm, ⟨64, _⟩ => ⟨S25000x128, .f32⟩
  | .hbm, ⟨65, _⟩ => ⟨S25000x128, .f32⟩
  | .hbm, ⟨66, _⟩ => ⟨S25000x128, .f32⟩
  | .hbm, ⟨67, _⟩ => ⟨S25000x128, .f32⟩
  | .hbm, ⟨68, _⟩ => ⟨S25000x128, .f32⟩
  | .hbm, ⟨69, _⟩ => ⟨S25000x128, .f32⟩
  | .hbm, ⟨70, _⟩ => ⟨S3200000, .f32⟩
  | .hbm, ⟨71, _⟩ => ⟨S3200000, .f32⟩
  | .hbm, ⟨72, _⟩ => ⟨S3200000x1, .f32⟩
  | .hbm, ⟨73, _⟩ => ⟨S3200000x1, .f32⟩
  | .hbm, ⟨74, _⟩ => ⟨S3200000x2, .f32⟩
  | .hbm, ⟨75, _⟩ => ⟨S_, .f32⟩
  | .hbm, ⟨76, _⟩ => ⟨S100000x2, .f32⟩
  | .hbm, ⟨77, _⟩ => ⟨S3200000x1, .i32⟩
  | .hbm, ⟨78, _⟩ => ⟨S100000x2, .f32⟩
  | .hbm, ⟨79, _⟩ => ⟨S100000x1, .f32⟩
  | .hbm, ⟨80, _⟩ => ⟨S100000, .f32⟩
  | .hbm, ⟨81, _⟩ => ⟨S100000x1, .f32⟩
  | .hbm, ⟨82, _⟩ => ⟨S100000, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S100000, .f32⟩
  | .hbm, ⟨87, _⟩ => ⟨S100000, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_c_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_1 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_c_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55_0 : Ref sig .tc := ⟨.hbm, 68, rfl⟩
abbrev main_v55_1 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_7 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_cst_9 : Ref sig .tc := ⟨.hbm, 93, rfl⟩
abbrev main_v76 : Ref sig .tc := ⟨.hbm, 94, rfl⟩
abbrev main_cst_10 : Ref sig .tc := ⟨.hbm, 95, rfl⟩
abbrev main_v77 : Ref sig .tc := ⟨.hbm, 96, rfl⟩
abbrev main_v78 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S100000x6_S100000x1_0_0 : S100000x6.Slices ![0, 0] S100000x1
  shapeCasts_S100000x1_S100000 : S100000x1.ShapeCasts S100000
  slices_S100000x6_S100000x1_0_1 : S100000x6.Slices ![0, 1] S100000x1
  slices_S100000x6_S100000x1_0_2 : S100000x6.Slices ![0, 2] S100000x1
  slices_S100000x6_S100000x1_0_3 : S100000x6.Slices ![0, 3] S100000x1
  slices_S100000x6_S100000x1_0_4 : S100000x6.Slices ![0, 4] S100000x1
  slices_S100000x6_S100000x1_0_5 : S100000x6.Slices ![0, 5] S100000x1
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S3200000_S25000x128 : S3200000.ShapeCasts S25000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S25000x128_S3200000 : S25000x128.ShapeCasts S3200000
  concatenates_S3200000x1_S3200000x1_S3200000x2_d1 : Shape.Concatenates [S3200000x1, S3200000x1] S3200000x2 1
  bcast_S_S100000x2 : S_.BroadcastsInDim S100000x2 (![] : Fin 0 → Fin S100000x2.rank)
  slices_S100000x2_S100000x1_0_0 : S100000x2.Slices ![0, 0] S100000x1
  slices_S100000x2_S100000x1_0_1 : S100000x2.Slices ![0, 1] S100000x1
  reducesTo_S100000_S_d0 : S100000.ReducesTo [0] S_
  h_S_ : 0 < S_.numel
  gather_S100000_S3200000x1_S3200000_n_0_n_n_0_1_1_wf : GatherDims.WF S100000 S3200000x1 S3200000 [] [0] [] [0] [] 1 ![1]
  scatter_S100000x2_S3200000x1_S3200000x2_1_0_0_1_wf : ScatterDims.WF S100000x2 S3200000x1 S3200000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S25000x128.size a
  hwx0_0 : ∀ i : grid0.Coords, EltTy.bits .f32 = 32 ∨ (Rect.block (s := S25000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S25000x128.size a
  hwx0_1 : ∀ i : grid0.Coords, EltTy.bits .f32 = 32 ∨ (Rect.block (s := S25000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S25000x128.size a
  hwx0_2 : ∀ i : grid0.Coords, EltTy.bits .f32 = 32 ∨ (Rect.block (s := S25000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S25000x128.size a
  hwx0_3 : ∀ i : grid0.Coords, EltTy.bits .f32 = 32 ∨ (Rect.block (s := S25000x128) S1000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S25000x128.size a
  hwx0_4 : ∀ i : grid0.Coords, EltTy.bits .f32 = 32 ∨ (Rect.block (s := S25000x128) S1000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S25000x128.size a
  hwx0_5 : ∀ i : grid0.Coords, EltTy.bits .f32 = 32 ∨ (Rect.block (s := S25000x128) S1000x128.size (cc0_transform_5 i) (hinb0_5 i)).WholeWords (EltTy.packing .f32)

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

abbrev win0_0 : Pipeline.Window sig grid0 :=
  Pipeline.Window.ofSpec (Memref.whole main_v51) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v55_0) S1000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v55_1) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x6 : Shape := ⟨2, ![100000, 6]⟩
abbrev S2x3200000 : Shape := ⟨2, ![2, 3200000]⟩
abbrev S3200000x2 : Shape := ⟨2, ![3200000, 2]⟩
abbrev S100000x1 : Shape := ⟨2, ![100000, 1]⟩
abbrev S100000 : Shape := ⟨1, ![100000]⟩
abbrev S3200000x1 : Shape := ⟨2, ![3200000, 1]⟩
abbrev S3200000 : Shape := ⟨1, ![3200000]⟩
abbrev S1x3200000 : Shape := ⟨2, ![1, 3200000]⟩
abbrev S_ : Shape := ⟨0, ![]⟩

abbrev nBuf : Space → Nat
  | .hbm => 97
  | .vmem => 0
  | .smem => 0
  | _ => 0

abbrev bufTy : (tb : Table) → Fin (tcTables nBuf tb) → BufTy
  | .hbm, ⟨0, _⟩ => ⟨S100000x6, .f32⟩
  | .hbm, ⟨1, _⟩ => ⟨S100000x6, .f32⟩
  | .hbm, ⟨2, _⟩ => ⟨S2x3200000, .i32⟩
  | .hbm, ⟨3, _⟩ => ⟨S3200000x2, .f32⟩
  | .hbm, ⟨4, _⟩ => ⟨S100000x6, .i1⟩
  | .hbm, ⟨5, _⟩ => ⟨S100000x6, .f32⟩
  | .hbm, ⟨6, _⟩ => ⟨S100000x1, .f32⟩
  | .hbm, ⟨7, _⟩ => ⟨S100000, .f32⟩
  | .hbm, ⟨8, _⟩ => ⟨S100000x1, .f32⟩
  | .hbm, ⟨9, _⟩ => ⟨S100000, .f32⟩
  | .hbm, ⟨10, _⟩ => ⟨S100000x1, .f32⟩
  | .hbm, ⟨11, _⟩ => ⟨S100000, .f32⟩
  | .hbm, ⟨12, _⟩ => ⟨S100000x1, .f32⟩
  | .hbm, ⟨13, _⟩ => ⟨S100000, .f32⟩
  | .hbm, ⟨14, _⟩ => ⟨S100000x1, .f32⟩
  | .hbm, ⟨15, _⟩ => ⟨S100000, .f32⟩
  | .hbm, ⟨16, _⟩ => ⟨S100000x1, .f32⟩
  | .hbm, ⟨17, _⟩ => ⟨S100000, .f32⟩
  | .hbm, ⟨18, _⟩ => ⟨S3200000x1, .f32⟩
  | .hbm, ⟨19, _⟩ => ⟨S3200000, .f32⟩
  | .hbm, ⟨20, _⟩ => ⟨S3200000x1, .f32⟩
  | .hbm, ⟨21, _⟩ => ⟨S3200000, .f32⟩
  | .hbm, ⟨22, _⟩ => ⟨S1x3200000, .i32⟩
  | .hbm, ⟨23, _⟩ => ⟨S3200000, .i32⟩
  | .hbm, ⟨24, _⟩ => ⟨S1x3200000, .i32⟩
  | .hbm, ⟨25, _⟩ => ⟨S3200000, .i32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000, .f32⟩
  | .hbm, ⟨53, _⟩ => ⟨S_, .i32⟩
  | .hbm, ⟨54, _⟩ => ⟨S3200000, .i32⟩
  | .hbm, ⟨55, _⟩ => ⟨S3200000, .i1⟩
  | .hbm, ⟨56, _⟩ => ⟨S_, .i32⟩
  | .hbm, ⟨57, _⟩ => ⟨S3200000, .i32⟩
  | .hbm, ⟨58, _⟩ => ⟨S3200000, .i32⟩
  | .hbm, ⟨59, _⟩ => ⟨S3200000, .i32⟩
  | .hbm, ⟨60, _⟩ => ⟨S3200000x1, .i32⟩
  | .hbm, ⟨61, _⟩ => ⟨S3200000, .f32⟩
  | .hbm, ⟨62, _⟩ => ⟨S3200000, .f32⟩
  | .hbm, ⟨63, _⟩ => ⟨S3200000, .f32⟩
  | .hbm, ⟨64, _⟩ => ⟨S3200000, .f32⟩
  | .hbm, ⟨65, _⟩ => ⟨S3200000, .f32⟩
  | .hbm, ⟨66, _⟩ => ⟨S3200000, .f32⟩
  | .hbm, ⟨67, _⟩ => ⟨S3200000, .f32⟩
  | .hbm, ⟨68, _⟩ => ⟨S3200000, .f32⟩
  | .hbm, ⟨69, _⟩ => ⟨S3200000, .f32⟩
  | .hbm, ⟨70, _⟩ => ⟨S3200000, .f32⟩
  | .hbm, ⟨71, _⟩ => ⟨S3200000, .f32⟩
  | .hbm, ⟨72, _⟩ => ⟨S3200000, .f32⟩
  | .hbm, ⟨73, _⟩ => ⟨S3200000, .f32⟩
  | .hbm, ⟨74, _⟩ => ⟨S_, .f32⟩
  | .hbm, ⟨75, _⟩ => ⟨S100000, .f32⟩
  | .hbm, ⟨76, _⟩ => ⟨S3200000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S3200000x1, .i32⟩
  | .hbm, ⟨81, _⟩ => ⟨S100000, .f32⟩
  | .hbm, ⟨82, _⟩ => ⟨S100000, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S100000, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_c_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_1 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_8 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_cst_10 : Ref sig .tc := ⟨.hbm, 92, rfl⟩
abbrev main_v75 : Ref sig .tc := ⟨.hbm, 93, rfl⟩
abbrev main_cst_11 : Ref sig .tc := ⟨.hbm, 94, rfl⟩
abbrev main_v76 : Ref sig .tc := ⟨.hbm, 95, rfl⟩
abbrev main_v77 : Ref sig .tc := ⟨.hbm, 96, rfl⟩

abbrev nD : Nat := 1
abbrev τ : Topo := Topo.v7x

variable {F : FTy → Type} [FloatOps F]

class Facts₀ : Prop where
  slices_S100000x6_S100000x1_0_0 : S100000x6.Slices ![0, 0] S100000x1
  shapeCasts_S100000x1_S100000 : S100000x1.ShapeCasts S100000
  slices_S100000x6_S100000x1_0_1 : S100000x6.Slices ![0, 1] S100000x1
  slices_S100000x6_S100000x1_0_2 : S100000x6.Slices ![0, 2] S100000x1
  slices_S100000x6_S100000x1_0_3 : S100000x6.Slices ![0, 3] S100000x1
  slices_S100000x6_S100000x1_0_4 : S100000x6.Slices ![0, 4] S100000x1
  slices_S100000x6_S100000x1_0_5 : S100000x6.Slices ![0, 5] S100000x1
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000 : S_.BroadcastsInDim S100000 (![] : Fin 0 → Fin S100000.rank)
  reducesTo_S100000_S_d0 : S100000.ReducesTo [0] S_
  h_S_ : 0 < S_.numel
  gather_S100000_S3200000x1_S3200000_n_0_n_n_0_1_1_wf : GatherDims.WF S100000 S3200000x1 S3200000 [] [0] [] [0] [] 1 ![1]
  scatter_S100000_S3200000x1_S3200000_n_0_0_1_wf : ScatterDims.WF S100000 S3200000x1 S3200000 [] [0] [0] 1

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.FlowSpec.lean ====
/-
  THE SPECIFICATION'S PIECES, over any float instance and free of any program.

  Per edge e with end voltages' product vv, angle difference ang and line constants g, b the two flows are

      active e   = vv · (g · cos ang + b · sin ang)
      reactive e = vv · (g · sin ang − b · cos ang)

  Both are entrywise, so they commute with any reshape of their four operands, and a reshape there and back leaves them
  as they were: computing them on a 25000 × 128 relayout of the 3 200 000 edges and flattening is computing them on
  the edges. The loss is the sum of two mean squares over the 100 000 nodes,

      loss = (Σ_i (pg_i − pd_i − P_i)²) / 100000 + (Σ_i (qg_i − qd_i − Q_i)²) / 100000,

  with P, Q the flows summed into their source nodes; it is kept as ONE function of the six node vectors, never opened.
-/
import Idealize.ShloMosaic.PureOps.Ideal
import Idealize.ShloMosaic.Lib.Pipeline.Value

noncomputable section

namespace PowerFlowSpec

open Idealize.ShloMosaic

variable {F : FTy → Type} [FloatOps F]

/-- The active flow, entrywise over any shape: vv · (g · cos ang + b · sin ang). -/
def activeFlow {s : Shape} (vv ang g b : FVec F s .f32) : FVec F s .f32 :=
  mulf vv (addf (mulf g (cos ang)) (mulf b (sin ang)))

/-- The reactive flow, entrywise over any shape: vv · (g · sin ang − b · cos ang). -/
def reactiveFlow {s : Shape} (vv ang g b : FVec F s .f32) : FVec F s .f32 :=
  mulf vv (subf (mulf g (sin ang)) (mulf b (cos ang)))

/-- An entrywise function commutes with a reshape of its operands. -/
theorem activeFlow_shapeCast {s t : Shape} (h : s.ShapeCasts t) (vv ang g b : FVec F s .f32) :
    shapeCast t (activeFlow vv ang g b) h = activeFlow (shapeCast t vv h) (shapeCast t ang h) (shapeCast t g h) (shapeCast t b h) := rfl

theorem reactiveFlow_shapeCast {s t : Shape} (h : s.ShapeCasts t) (vv ang g b : FVec F s .f32) :
    shapeCast t (reactiveFlow vv ang g b) h = reactiveFlow (shapeCast t vv h) (shapeCast t ang h) (shapeCast t g h) (shapeCast t b h) := rfl

/-- The flows of reshaped operands, reshaped back, are the flows of the operands. -/
theorem activeFlow_there_and_back {s t : Shape} (h : s.ShapeCasts t) (h' : t.ShapeCasts s) (vv ang g b : FVec F s .f32) :
    shapeCast s (activeFlow (shapeCast t vv h) (shapeCast t ang h) (shapeCast t g h) (shapeCast t b h)) h' = activeFlow vv ang g b := by
  rw [activeFlow_shapeCast, shapeCast_shapeCast, shapeCast_shapeCast, shapeCast_shapeCast, shapeCast_shapeCast]

theorem reactiveFlow_there_and_back {s t : Shape} (h : s.ShapeCasts t) (h' : t.ShapeCasts s) (vv ang g b : FVec F s .f32) :
    shapeCast s (reactiveFlow (shapeCast t vv h) (shapeCast t ang h) (shapeCast t g h) (shapeCast t b h)) h' = reactiveFlow vv ang g b := by
  rw [reactiveFlow_shapeCast, shapeCast_shapeCast, shapeCast_shapeCast, shapeCast_shapeCast, shapeCast_shapeCast]

/-- At exact real arithmetic the host's cosine and sine are the vector unit's, so the flows written with the host's
    functions, one product at a time, are these. -/
theorem activeFlow_host {s : Shape} (vv ang g b : FVec Ideal s .f32) :
    mulf vv (addf (mulf g (Host.cos ang)) (mulf b (Host.sin ang))) = activeFlow vv ang g b := rfl

theorem reactiveFlow_host {s : Shape} (vv ang g b : FVec Ideal s .f32) :
    mulf vv (subf (mulf g (Host.sin ang)) (mulf b (Host.cos ang))) = reactiveFlow vv ang g b := rfl

/-- The node vectors' shape and the scalar's. -/
abbrev SNodes : Shape := ⟨1, ![100000]⟩
abbrev SScalar : Shape := ⟨0, ![]⟩

/-- THE LOSS from the node vectors: mean square of pg − pd − P plus mean square of qg − qd − Q, the sums the host's,
    the divisor the literal 100000.0 and the sums' initial value the literal 0.0. -/
def imbalanceLoss (hr : SNodes.ReducesTo [0] SScalar) (h0 : 0 < SScalar.numel) (pg pd qg qd P Q : FVec F SNodes .f32) : FVec F SScalar .f32 :=
  addf
    (Host.divf (Host.reduceAdd (mulf (subf (subf pg pd) P) (subf (subf pg pd) P)) (constant SScalar .f32 0x00000000#32) hr h0)
      (constant SScalar .f32 0x47C35000#32))
    (Host.divf (Host.reduceAdd (mulf (subf (subf qg qd) Q) (subf (subf qg qd) Q)) (constant SScalar .f32 0x00000000#32) hr h0)
      (constant SScalar .f32 0x47C35000#32))

end PowerFlowSpec

end
-- ==== Proof.EdgeFlows.lean ====
/-
  THE EDGE KERNEL'S TWO OUTPUT ARRAYS AS WHOLE-ARRAY FUNCTIONS OF ITS FOUR INPUT ARRAYS.

  The kernel runs over 25 grid points; at point t every window (four inputs, two outputs) is rows
  1000·t … 1000·t + 999 of a 25000 × 128 array. Its body loads the four input blocks vv, ang, g, b whole and stores

      active   = vv · (g · cos ang + b · sin ang)
      reactive = vv · (g · sin ang − b · cos ang)

  entry by entry. Since every window moves with the same block index, what point t writes back is block t of the
  same entrywise function of the four whole input arrays; the 25 blocks tile the 25000 rows, so each output array ends
  as that function of the input arrays (as the region finds them), at every float instance.
-/
import proofs.«156760_j89936615178647_2_alg».proof.Proof.Gen.KernelIdeal.Frame
import Idealize.ShloMosaic.Lib.Pipeline.Value
import proofs.«156760_j89936615178647_2_alg».proof.Proof.FlowSpec

set_option maxRecDepth 16384

noncomputable section

namespace Cert.KernelIdeal.EdgeFlows

open Cert.KernelIdeal Cert.KernelIdeal.Gen
open Idealize.ShloMosaic Idealize.ShloMosaic.TcCoe Idealize.SL.Sem
open Idealize.ShloMosaic.Pipeline (Dat)
open PowerFlowSpec

variable {F : FTy → Type} [FloatOps F]

/-- The body's first stored value is the active flow of its loaded blocks (its shape casts are to the same shape). -/
theorem pay7_eq (ang vv g b : Vec F S1000x128 .f32) : k0_pay7 ang vv g b = activeFlow vv ang g b := by
  simp only [k0_pay7, k0_pay1, k0_pay2, k0_pay3, k0_pay4, k0_pay5, k0_pay6, activeFlow, shapeCast_self]

/-- The body's second stored value is the reactive flow of its loaded blocks. -/
theorem pay8_eq (ang vv g b : Vec F S1000x128 .f32) : k0_pay8 ang vv g b = reactiveFlow vv ang g b := by
  simp only [k0_pay8, k0_pay1, k0_pay2, k0_pay3, k0_pay4, k0_pay5, k0_pay6, reactiveFlow, shapeCast_self]

theorem hz : (![0, 0] : Fin 2 → Nat) = fun _ => 0 := funext fun a => by fin_cases a <;> rfl

/-- The six index maps agree at every grid point: block (t, 0), t below 25. -/
theorem idx_facts : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_3.index t (0 : Fin 2) = win0_4.index t (0 : Fin 2) ∧ win0_3.index t (1 : Fin 2) = win0_4.index t (1 : Fin 2)
    ∧ win0_5.index t (0 : Fin 2) = win0_4.index t (0 : Fin 2) ∧ win0_5.index t (1 : Fin 2) = win0_4.index t (1 : Fin 2) :=
  (by decide +kernel : ∀ t : Fin grid0.N, _)

/-- Every block row is some point's, for either output window. -/
theorem idx_onto4 : ∀ q : Fin 25, ∃ t : Fin cfg0.N, win0_4.index t = ![q.val, 0] :=
  (by decide +kernel : ∀ q : Fin 25, ∃ t : Fin grid0.N, win0_4.index t = ![q.val, 0])
theorem idx_onto5 : ∀ q : Fin 25, ∃ t : Fin cfg0.N, win0_5.index t = ![q.val, 0] :=
  (by decide +kernel : ∀ q : Fin 25, ∃ t : Fin grid0.N, win0_5.index t = ![q.val, 0])

/-! ## One point's blocks, over any four arrays -/

/-- The active flow of the four input blocks at point t is block t (window 4's) of the active flow of the arrays. -/
theorem active_block (t : Fin cfg0.N) (a0 a1 a2 a3 : S25000x128.Idx → Elt F .f32) :
    (cfg0.win 4).cut (grid0.coords t) (activeFlow (((cfg0.win 0).blk t).view.read (Elt F) a0) (((cfg0.win 1).blk t).view.read (Elt F) a1)
        (((cfg0.win 2).blk t).view.read (Elt F) a2) (((cfg0.win 3).blk t).view.read (Elt F) a3))
      = ((cfg0.win 4).blk t).view.read (Elt F) (activeFlow a0 a1 a2 a3) := by
  obtain ⟨e00, e01, e10, e11, e20, e21, e30, e31, e50, e51⟩ := idx_facts t
  funext j
  show FloatOps.mulf (a0 (((cfg0.win 0).blk t).view.emb j)) (FloatOps.addf (FloatOps.mulf (a2 (((cfg0.win 2).blk t).view.emb j)) (FloatOps.cos (a1 (((cfg0.win 1).blk t).view.emb j)))) (FloatOps.mulf (a3 (((cfg0.win 3).blk t).view.emb j)) (FloatOps.sin (a1 (((cfg0.win 1).blk t).view.emb j)))))
    = FloatOps.mulf (a0 (((cfg0.win 4).blk t).view.emb j)) (FloatOps.addf (FloatOps.mulf (a2 (((cfg0.win 4).blk t).view.emb j)) (FloatOps.cos (a1 (((cfg0.win 4).blk t).view.emb j)))) (FloatOps.mulf (a3 (((cfg0.win 4).blk t).view.emb j)) (FloatOps.sin (a1 (((cfg0.win 4).blk t).view.emb j)))))
  have h0 : ((cfg0.win 0).blk t).view.emb j = ((cfg0.win 4).blk t).view.emb j := by
    funext a; apply Fin.ext
    match a with
    | ⟨0, _⟩ => show win0_0.index t (0 : Fin 2) * 1000 + 1 * (j 0).val = win0_4.index t (0 : Fin 2) * 1000 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 1000 + 1 * (j 0).val = win0_4.index t (0 : Fin 2) * 1000 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb j = ((cfg0.win 4).blk t).view.emb j := by
    funext a; apply Fin.ext
    match a with
    | ⟨0, _⟩ => show win0_2.index t (0 : Fin 2) * 1000 + 1 * (j 0).val = win0_4.index t (0 : Fin 2) * 1000 + 1 * (j 0).val; omega
    | ⟨1, _⟩ => show win0_2.index t (1 : Fin 2) * 128 + 1 * (j 1).val = win0_4.index t (1 : Fin 2) * 128 + 1 * (j 1).val; omega
  have h3 : ((cfg0.win 3).blk t).view.emb j = ((cfg0.win 4).blk t).view.emb j := by
    funext a; apply Fin.ext
    match a with
    | ⟨0, _⟩ => show win0_3.index t (0 : Fin 2) * 1000 + 1 * (j 0).val = win0_4.index t (0 : Fin 2) * 1000 + 1 * (j 0).val; omega
    | ⟨1, _⟩ => show win0_3.index t (1 : Fin 2) * 128 + 1 * (j 1).val = win0_4.index t (1 : Fin 2) * 128 + 1 * (j 1).val; omega
  rw [h0, h1, h2, h3]

/-- The reactive flow of the four input blocks at point t is block t (window 5's) of the reactive flow of the arrays. -/
theorem reactive_block (t : Fin cfg0.N) (a0 a1 a2 a3 : S25000x128.Idx → Elt F .f32) :
    (cfg0.win 5).cut (grid0.coords t) (reactiveFlow (((cfg0.win 0).blk t).view.read (Elt F) a0) (((cfg0.win 1).blk t).view.read (Elt F) a1)
        (((cfg0.win 2).blk t).view.read (Elt F) a2) (((cfg0.win 3).blk t).view.read (Elt F) a3))
      = ((cfg0.win 5).blk t).view.read (Elt F) (reactiveFlow a0 a1 a2 a3) := by
  obtain ⟨e00, e01, e10, e11, e20, e21, e30, e31, e50, e51⟩ := idx_facts t
  funext j
  show FloatOps.mulf (a0 (((cfg0.win 0).blk t).view.emb j)) (FloatOps.subf (FloatOps.mulf (a2 (((cfg0.win 2).blk t).view.emb j)) (FloatOps.sin (a1 (((cfg0.win 1).blk t).view.emb j)))) (FloatOps.mulf (a3 (((cfg0.win 3).blk t).view.emb j)) (FloatOps.cos (a1 (((cfg0.win 1).blk t).view.emb j)))))
    = FloatOps.mulf (a0 (((cfg0.win 5).blk t).view.emb j)) (FloatOps.subf (FloatOps.mulf (a2 (((cfg0.win 5).blk t).view.emb j)) (FloatOps.sin (a1 (((cfg0.win 5).blk t).view.emb j)))) (FloatOps.mulf (a3 (((cfg0.win 5).blk t).view.emb j)) (FloatOps.cos (a1 (((cfg0.win 5).blk t).view.emb j)))))
  have h0 : ((cfg0.win 0).blk t).view.emb j = ((cfg0.win 5).blk t).view.emb j := by
    funext a; apply Fin.ext
    match a with
    | ⟨0, _⟩ => show win0_0.index t (0 : Fin 2) * 1000 + 1 * (j 0).val = win0_5.index t (0 : Fin 2) * 1000 + 1 * (j 0).val; omega
    | ⟨1, _⟩ => show win0_0.index t (1 : Fin 2) * 128 + 1 * (j 1).val = win0_5.index t (1 : Fin 2) * 128 + 1 * (j 1).val; omega
  have h1 : ((cfg0.win 1).blk t).view.emb j = ((cfg0.win 5).blk t).view.emb j := by
    funext a; apply Fin.ext
    match a with
    | ⟨0, _⟩ => show win0_1.index t (0 : Fin 2) * 1000 + 1 * (j 0).val = win0_5.index t (0 : Fin 2) * 1000 + 1 * (j 0).val; omega
    | ⟨1, _⟩ => show win0_1.index t (1 : Fin 2) * 128 + 1 * (j 1).val = win0_5.index t (1 : Fin 2) * 128 + 1 * (j 1).val; omega
  have h2 : ((cfg0.win 2).blk t).view.emb j = ((cfg0.win 5).blk t).view.emb j := by
    funext a; apply Fin.ext
    match a with
    | ⟨0, _⟩ => show win0_2.index t (0 : Fin 2) * 1000 + 1 * (j 0).val = win0_5.index t (0 : Fin 2) * 1000 + 1 * (j 0).val; omega
    | ⟨1, _⟩ => show win0_2.index t (1 : Fin 2) * 128 + 1 * (j 1).val = win0_5.index t (1 : Fin 2) * 128 + 1 * (j 1).val; omega
  have h3 : ((cfg0.win 3).blk t).view.emb j = ((cfg0.win 5).blk t).view.emb j := by
    funext a; apply Fin.ext
    match a with
    | ⟨0, _⟩ => show win0_3.index t (0 : Fin 2) * 1000 + 1 * (j 0).val = win0_5.index t (0 : Fin 2) * 1000 + 1 * (j 0).val; omega
    | ⟨1, _⟩ => show win0_3.index t (1 : Fin 2) * 128 + 1 * (j 1).val = win0_5.index t (1 : Fin 2) * 128 + 1 * (j 1).val; omega
  rw [h0, h1, h2, h3]

/-! ## The cover: the 25 blocks of 1000 rows tile the 25000 rows -/

theorem mem_blk4 (t : Fin cfg0.N) (i : S25000x128.Idx) :
    i ∈ ((cfg0.win 4).blk t).view.set ↔ ∀ a : Fin 2, win0_4.index t a * S1000x128.size a ≤ (i a).val ∧ (i a).val < win0_4.index t a * S1000x128.size a + S1000x128.size a := by
  show i ∈ ((View.whole main_v55_0).slice (win0_4.rect t)).set ↔ _
  rw [View.set_slice_whole, Rect.mem_set_unit]
  exact Iff.rfl

theorem mem_blk5 (t : Fin cfg0.N) (i : S25000x128.Idx) :
    i ∈ ((cfg0.win 5).blk t).view.set ↔ ∀ a : Fin 2, win0_5.index t a * S1000x128.size a ≤ (i a).val ∧ (i a).val < win0_5.index t a * S1000x128.size a + S1000x128.size a := by
  show i ∈ ((View.whole main_v55_1).slice (win0_5.rect t)).set ↔ _
  rw [View.set_slice_whole, Rect.mem_set_unit]
  exact Iff.rfl

/-- Row r of the array is in the block of the point whose block row is r / 1000. -/
theorem cover4 (i : S25000x128.Idx) : ∃ t : Fin cfg0.N, (cfg0.win 4).flush t = true ∧ i ∈ ((cfg0.win 4).blk t).view.set := by
  have hi0 : (i 0).val < 25000 := (i 0).isLt
  have hi1 : (i 1).val < 128 := (i 1).isLt
  obtain ⟨t, ht⟩ := idx_onto4 ⟨(i 0).val / 1000, by omega⟩
  have q0 : win0_4.index t (0 : Fin 2) = (i 0).val / 1000 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 128 ≤ (i 1).val ∧ (i 1).val < win0_4.index t (1 : Fin 2) * 128 + 128; omega

theorem cover5 (i : S25000x128.Idx) : ∃ t : Fin cfg0.N, (cfg0.win 5).flush t = true ∧ i ∈ ((cfg0.win 5).blk t).view.set := by
  have hi0 : (i 0).val < 25000 := (i 0).isLt
  have hi1 : (i 1).val < 128 := (i 1).isLt
  obtain ⟨t, ht⟩ := idx_onto5 ⟨(i 0).val / 1000, by omega⟩
  have q0 : win0_5.index t (0 : Fin 2) = (i 0).val / 1000 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 128 ≤ (i 1).val ∧ (i 1).val < win0_5.index t (1 : Fin 2) * 128 + 128; omega

/-! ## What each point writes back, and the arrays after the run -/

variable (m : (ℓ : Loc nD τ sig) → Buf (Elt F) ℓ)

/-- WHAT POINT t WRITES BACK through window 4 is block t of the active flow of the four input arrays. -/
theorem flushed4_eq (c : Dev nD) (t : Fin cfg0.N) :
    (dats m 0 c).flushed 4 t = ((cfg0.win 4).blk t).view.read (Elt F)
      (activeFlow (V m c (Pipeline.arrRef spec0 0)) (V m c (Pipeline.arrRef spec0 1)) (V m c (Pipeline.arrRef spec0 2)) (V m c (Pipeline.arrRef spec0 3))) := by
  show (cfg0.win 4).cut (grid0.coords t) ((dats m 0 c).after 4 t) = _
  rw [after0_4]
  unfold out0_4
  rw [View.canon_unit_zero hz]
  simp only [View.ld_unit_zero (S := S1000x128) hz]
  rw [pay7_eq]
  unfold iblk
  exact active_block t _ _ _ _

/-- WHAT POINT t WRITES BACK through window 5 is block t of the reactive flow of the four input arrays. -/
theorem flushed5_eq (c : Dev nD) (t : Fin cfg0.N) :
    (dats m 0 c).flushed 5 t = ((cfg0.win 5).blk t).view.read (Elt F)
      (reactiveFlow (V m c (Pipeline.arrRef spec0 0)) (V m c (Pipeline.arrRef spec0 1)) (V m c (Pipeline.arrRef spec0 2)) (V m c (Pipeline.arrRef spec0 3))) := by
  show (cfg0.win 5).cut (grid0.coords t) ((dats m 0 c).after 5 t) = _
  rw [after0_5]
  unfold out0_5
  rw [View.canon_unit_zero hz]
  simp only [View.ld_unit_zero (S := S1000x128) hz]
  rw [pay8_eq]
  unfold iblk
  exact reactive_block t _ _ _ _

/-- THE FIRST OUTPUT ARRAY after the run: the active flow of the four input arrays as the region finds them. -/
theorem final4 (c : Dev nD) : (dats m 0 c).arrAt 4 cfg0.N
    = activeFlow (V m c (Pipeline.arrRef spec0 0)) (V m c (Pipeline.arrRef spec0 1)) (V m c (Pipeline.arrRef spec0 2)) (V m c (Pipeline.arrRef spec0 3)) :=
  (dats m 0 c).arrAt_eq_of_cover 4 _ (fun t _ => flushed4_eq m c t) cover4

/-- THE SECOND OUTPUT ARRAY after the run: the reactive flow of the four input arrays as the region finds them. -/
theorem final5 (c : Dev nD) : (dats m 0 c).arrAt 5 cfg0.N
    = reactiveFlow (V m c (Pipeline.arrRef spec0 0)) (V m c (Pipeline.arrRef spec0 1)) (V m c (Pipeline.arrRef spec0 2)) (V m c (Pipeline.arrRef spec0 3)) :=
  (dats m 0 c).arrAt_eq_of_cover 5 _ (fun t _ => flushed5_eq m c t) cover5

end Cert.KernelIdeal.EdgeFlows

end
-- ==== Proof.HeadReads.lean ====
/-
  WHAT THE REGION AND THE LINES AFTER IT FIND, as functions of the arguments.

  The kernel's program and the reference begin with the same host operations on the same arguments: the masked choice
  between pred and target, its six columns, the two columns of edge_attr, the two rows of edge_index, the four gathers
  at the wrapped indices, the product of the gathered magnitudes and the difference of the gathered angles. Each value
  the kernel's region or its later lines read is therefore, term for term, a stage of the reference (the generated
  stage functions), the four edge vectors reshaped to 25000 × 128. Stated over ANY contents M of the buffers at launch,
  so that nothing here depends on how the run's memory is spelt.
-/
import proofs.«156760_j89936615178647_2_alg».proof.Proof.Gen.KernelIdeal.Frame
import proofs.«156760_j89936615178647_2_alg».proof.Proof.Gen.ReferenceIdeal.Read
import Idealize.ShloMosaic.Lib.StableHlo.Run

set_option maxRecDepth 16384

noncomputable section

namespace Cert.KernelIdeal.HeadReads

open Cert.KernelIdeal Cert.KernelIdeal.Gen
open Idealize.ShloMosaic Idealize.ShloMosaic.TcCoe Idealize.SL.Sem Idealize.ShloMosaic.StableHlo

variable {F : FTy → Type} [FloatOps F]

set_option maxHeartbeats 8000000 in
/-- Column 2 of the masked choice (generated active power). -/
theorem head_pg (M : Valuation τ sig (Elt F)) :
    StableHlo.after (List.flatten [hostOps0, hostOps0_1]) M (Proc.devRef .tc main_v6)
      = Cert.ReferenceIdeal.Read.val_main_v6 (F := F) (M (Proc.devRef .tc main_arg0)) (M (Proc.devRef .tc main_arg1)) (M (Proc.devRef .tc main_arg4)) := by
  simp only [hostOps0, hostOps0_1, List.flatten_cons, List.flatten_nil, List.append_nil, List.cons_append, List.nil_append]
  after_results_simp
  rfl

set_option maxHeartbeats 8000000 in
/-- Column 4 of the masked choice (active demand). -/
theorem head_pd (M : Valuation τ sig (Elt F)) :
    StableHlo.after (List.flatten [hostOps0, hostOps0_1]) M (Proc.devRef .tc main_v10)
      = Cert.ReferenceIdeal.Read.val_main_v10 (F := F) (M (Proc.devRef .tc main_arg0)) (M (Proc.devRef .tc main_arg1)) (M (Proc.devRef .tc main_arg4)) := by
  simp only [hostOps0, hostOps0_1, List.flatten_cons, List.flatten_nil, List.append_nil, List.cons_append, List.nil_append]
  after_results_simp
  rfl

set_option maxHeartbeats 8000000 in
/-- Column 3 of the masked choice (generated reactive power). -/
theorem head_qg (M : Valuation τ sig (Elt F)) :
    StableHlo.after (List.flatten [hostOps0, hostOps0_1]) M (Proc.devRef .tc main_v8)
      = Cert.ReferenceIdeal.Read.val_main_v8 (F := F) (M (Proc.devRef .tc main_arg0)) (M (Proc.devRef .tc main_arg1)) (M (Proc.devRef .tc main_arg4)) := by
  simp only [hostOps0, hostOps0_1, List.flatten_cons, List.flatten_nil, List.append_nil, List.cons_append, List.nil_append]
  after_results_simp
  rfl

set_option maxHeartbeats 8000000 in
/-- Column 5 of the masked choice (reactive demand). -/
theorem head_qd (M : Valuation τ sig (Elt F)) :
    StableHlo.after (List.flatten [hostOps0, hostOps0_1]) M (Proc.devRef .tc main_v12)
      = Cert.ReferenceIdeal.Read.val_main_v12 (F := F) (M (Proc.devRef .tc main_arg0)) (M (Proc.devRef .tc main_arg1)) (M (Proc.devRef .tc main_arg4)) := by
  simp only [hostOps0, hostOps0_1, List.flatten_cons, List.flatten_nil, List.append_nil, List.cons_append, List.nil_append]
  after_results_simp
  rfl

set_option maxHeartbeats 8000000 in
/-- Row 0 of edge_index: each edge's source node, as given (not wrapped). -/
theorem head_src (M : Valuation τ sig (Elt F)) :
    StableHlo.after (List.flatten [hostOps0, hostOps0_1]) M (Proc.devRef .tc main_v18)
      = Cert.ReferenceIdeal.Read.val_main_v18 (F := F) (M (Proc.devRef .tc main_arg2)) := by
  simp only [hostOps0, hostOps0_1, List.flatten_cons, List.flatten_nil, List.append_nil, List.cons_append, List.nil_append]
  after_results_simp
  rfl

set_option maxHeartbeats 8000000 in
/-- The product of the two gathered magnitudes, per edge, reshaped to 25000 × 128. -/
theorem head_vv (M : Valuation τ sig (Elt F)) :
    StableHlo.after (List.flatten [hostOps0, hostOps0_1]) M (Proc.devRef .tc main_v51)
      = shapeCast S25000x128 (Cert.ReferenceIdeal.Read.val_main_v52 (F := F) (M (Proc.devRef .tc main_arg0)) (M (Proc.devRef .tc main_arg1)) (M (Proc.devRef .tc main_arg2)) (M (Proc.devRef .tc main_arg4))) shapeCasts_S3200000_S25000x128 := by
  simp only [hostOps0, hostOps0_1, List.flatten_cons, List.flatten_nil, List.append_nil, List.cons_append, List.nil_append]
  after_results_simp
  rfl

set_option maxHeartbeats 8000000 in
/-- The difference of the two gathered angles, per edge, reshaped to 25000 × 128. -/
theorem head_ang (M : Valuation τ sig (Elt F)) :
    StableHlo.after (List.flatten [hostOps0, hostOps0_1]) M (Proc.devRef .tc main_v52)
      = shapeCast S25000x128 (Cert.ReferenceIdeal.Read.val_main_v49 (F := F) (M (Proc.devRef .tc main_arg0)) (M (Proc.devRef .tc main_arg1)) (M (Proc.devRef .tc main_arg2)) (M (Proc.devRef .tc main_arg4))) shapeCasts_S3200000_S25000x128 := by
  simp only [hostOps0, hostOps0_1, List.flatten_cons, List.flatten_nil, List.append_nil, List.cons_append, List.nil_append]
  after_results_simp
  rfl

set_option maxHeartbeats 8000000 in
/-- Column 0 of edge_attr, reshaped to 25000 × 128. -/
theorem head_g (M : Valuation τ sig (Elt F)) :
    StableHlo.after (List.flatten [hostOps0, hostOps0_1]) M (Proc.devRef .tc main_v53)
      = shapeCast S25000x128 (Cert.ReferenceIdeal.Read.val_main_v14 (F := F) (M (Proc.devRef .tc main_arg3))) shapeCasts_S3200000_S25000x128 := by
  simp only [hostOps0, hostOps0_1, List.flatten_cons, List.flatten_nil, List.append_nil, List.cons_append, List.nil_append]
  after_results_simp
  rfl

set_option maxHeartbeats 8000000 in
/-- Column 1 of edge_attr, reshaped to 25000 × 128. -/
theorem head_b (M : Valuation τ sig (Elt F)) :
    StableHlo.after (List.flatten [hostOps0, hostOps0_1]) M (Proc.devRef .tc main_v54)
      = shapeCast S25000x128 (Cert.ReferenceIdeal.Read.val_main_v16 (F := F) (M (Proc.devRef .tc main_arg3))) shapeCasts_S3200000_S25000x128 := by
  simp only [hostOps0, hostOps0_1, List.flatten_cons, List.flatten_nil, List.append_nil, List.cons_append, List.nil_append]
  after_results_simp
  rfl

end Cert.KernelIdeal.HeadReads

end
-- ==== Proof.KernelTail.lean ====
/-
  THE KERNEL'S LINES AFTER THE REGION, read back as one function.

  After the region the program flattens the two flow arrays to 3 200 000 edges, makes each a column, joins the two
  columns into [3200000, 2], scatter-adds the rows into zeros [100000, 2] at the column of source nodes, cuts the two
  columns out again, and ends with the loss of the six node vectors. Read over ANY contents W of the buffers at the
  region's exit: first the four lines up to the two columns, then the rest from the buffers those leave.
-/
import proofs.«156760_j89936615178647_2_alg».proof.Proof.Gen.KernelIdeal.Frame
import proofs.«156760_j89936615178647_2_alg».proof.Proof.FlowSpec
import Idealize.ShloMosaic.Lib.StableHlo.Run

set_option maxRecDepth 16384

noncomputable section

namespace Cert.KernelIdeal.Tail

open Cert.KernelIdeal Cert.KernelIdeal.Gen PowerFlowSpec
open Idealize.ShloMosaic Idealize.ShloMosaic.TcCoe Idealize.SL.Sem Idealize.ShloMosaic.StableHlo

variable {F : FTy → Type} [FloatOps F]

/-- A flow array flattened to the edges and made a column. -/
def edgeColumn (x : FVec F S25000x128 .f32) : FVec F S3200000x1 .f32 :=
  broadcastInDim S3200000x1 ![0] bcast_S3200000_S3200000x1_0 (shapeCast S3200000 x shapeCasts_S25000x128_S3200000)

/-- The two columns joined and scatter-added by rows into zeros [100000, 2] at the column of source nodes. -/
def pairedSums (src : IVec S3200000 32) (pc qc : FVec F S3200000x1 .f32) : FVec F S100000x2 .f32 :=
  Host.scatterAdd scatter_S100000x2_S3200000x1_S3200000x2_1_0_0_1
    (broadcastInDim S100000x2 ![] bcast_S_S100000x2 (constant S_ .f32 0x00000000#32))
    (broadcastInDim S3200000x1 ![0] bcast_S3200000_S3200000x1_0 src)
    (concatenate S3200000x2 1 [⟨S3200000x1, pc⟩, ⟨S3200000x1, qc⟩] concatenates_S3200000x1_S3200000x1_S3200000x2_d1)

/-- Column 0, and column 1, of a [100000, 2] array as node vectors. -/
def column0 (x : FVec F S100000x2 .f32) : FVec F S100000 .f32 :=
  shapeCast S100000 (extractStridedSlice S100000x1 ![0, 0] x slices_S100000x2_S100000x1_0_0) shapeCasts_S100000x1_S100000
def column1 (x : FVec F S100000x2 .f32) : FVec F S100000 .f32 :=
  shapeCast S100000 (extractStridedSlice S100000x1 ![0, 1] x slices_S100000x2_S100000x1_0_1) shapeCasts_S100000x1_S100000

/-- The lines after the region are the first four and then the rest. -/
theorem split (W : Valuation τ sig (Elt F)) :
    StableHlo.after hostOps1 W = StableHlo.after (hostOps1.drop 4) (StableHlo.after (hostOps1.take 4) W) := rfl

set_option maxHeartbeats 4000000 in
/-- The rest: the loss of the four node vectors and the two columns of the paired sums. -/
theorem rest (W : Valuation τ sig (Elt F)) :
    StableHlo.after (hostOps1.drop 4) W (Proc.devRef .tc main_v78)
      = imbalanceLoss reducesTo_S100000_S_d0 h_S_ (W (Proc.devRef .tc main_v6)) (W (Proc.devRef .tc main_v10)) (W (Proc.devRef .tc main_v8)) (W (Proc.devRef .tc main_v12))
          (column0 (pairedSums (W (Proc.devRef .tc main_v18)) (W (Proc.devRef .tc main_v58)) (W (Proc.devRef .tc main_v59))))
          (column1 (pairedSums (W (Proc.devRef .tc main_v18)) (W (Proc.devRef .tc main_v58)) (W (Proc.devRef .tc main_v59)))) := by
  simp only [hostOps1, List.drop_succ_cons, List.drop_zero]
  after_results_simp
  rfl

/-- The first four lines leave the two flow arrays as columns … -/
theorem first_active (W : Valuation τ sig (Elt F)) :
    StableHlo.after (hostOps1.take 4) W (Proc.devRef .tc main_v58) = edgeColumn (W (Proc.devRef .tc main_v55_0)) := by
  simp only [hostOps1, List.take_succ_cons, List.take_zero]
  after_results_simp
  rfl
theorem first_reactive (W : Valuation τ sig (Elt F)) :
    StableHlo.after (hostOps1.take 4) W (Proc.devRef .tc main_v59) = edgeColumn (W (Proc.devRef .tc main_v55_1)) := by
  simp only [hostOps1, List.take_succ_cons, List.take_zero]
  after_results_simp
  rfl
/-- … and the five vectors the later lines read as they were. -/
theorem first_keep_v6 (W : Valuation τ sig (Elt F)) :
    StableHlo.after (hostOps1.take 4) W (Proc.devRef .tc main_v6) = W (Proc.devRef .tc main_v6) := by
  simp only [hostOps1, List.take_succ_cons, List.take_zero]
  after_results_simp
theorem first_keep_v10 (W : Valuation τ sig (Elt F)) :
    StableHlo.after (hostOps1.take 4) W (Proc.devRef .tc main_v10) = W (Proc.devRef .tc main_v10) := by
  simp only [hostOps1, List.take_succ_cons, List.take_zero]
  after_results_simp
theorem first_keep_v8 (W : Valuation τ sig (Elt F)) :
    StableHlo.after (hostOps1.take 4) W (Proc.devRef .tc main_v8) = W (Proc.devRef .tc main_v8) := by
  simp only [hostOps1, List.take_succ_cons, List.take_zero]
  after_results_simp
theorem first_keep_v12 (W : Valuation τ sig (Elt F)) :
    StableHlo.after (hostOps1.take 4) W (Proc.devRef .tc main_v12) = W (Proc.devRef .tc main_v12) := by
  simp only [hostOps1, List.take_succ_cons, List.take_zero]
  after_results_simp
theorem first_keep_v18 (W : Valuation τ sig (Elt F)) :
    StableHlo.after (hostOps1.take 4) W (Proc.devRef .tc main_v18) = W (Proc.devRef .tc main_v18) := by
  simp only [hostOps1, List.take_succ_cons, List.take_zero]
  after_results_simp

/-- THE LINES AFTER THE REGION from any contents W: the loss of the four node vectors found there and the two columns of
    the paired sums of the two flow arrays found there. -/
theorem of_contents (W : Valuation τ sig (Elt F)) :
    StableHlo.after (List.flatten [hostOps1]) W (Proc.devRef .tc main_v78)
      = imbalanceLoss reducesTo_S100000_S_d0 h_S_ (W (Proc.devRef .tc main_v6)) (W (Proc.devRef .tc main_v10)) (W (Proc.devRef .tc main_v8)) (W (Proc.devRef .tc main_v12))
          (column0 (pairedSums (W (Proc.devRef .tc main_v18)) (edgeColumn (W (Proc.devRef .tc main_v55_0))) (edgeColumn (W (Proc.devRef .tc main_v55_1)))))
          (column1 (pairedSums (W (Proc.devRef .tc main_v18)) (edgeColumn (W (Proc.devRef .tc main_v55_0))) (edgeColumn (W (Proc.devRef .tc main_v55_1))))) := by
  rw [show List.flatten [hostOps1 (F := F)] = hostOps1 from by simp only [List.flatten_cons, List.flatten_nil, List.append_nil],
    split, rest, first_keep_v6, first_keep_v10, first_keep_v8, first_keep_v12, first_keep_v18, first_active, first_reactive]

end Cert.KernelIdeal.Tail

end
-- ==== Proof.LibRowScatterSum.lean ====
/-
  A SCATTER-ADD OF ROWS READ AT AN ENTRY, AS A SUM OVER EDGES. A general lemma file: it names no program.

  A row scatter-add (update_window_dims [1], inserted_window_dims [0], scatter_dims_to_operand_dims [0],
  index_vector_dim 1) of updates u : [R, C] into an operand x : [N, C] at a column of index words idx : [R, 1] sends
  update element (e, c) to operand entry (idx[e, 0], c), the word read signed, and drops it when that row is outside
  [0, N). So update element (e, c) lands on entry (i, j) exactly when the word of e, read signed, is i and c = j
  (rows_lands_iff); the updates landing on (i, j) are the elements (e, j) with e among the edges whose word is i
  (into idx i, a set that does not depend on the width C), and at exact real arithmetic the scatter-add reads
  x (i, j) plus the sum over those edges of u (e, j) (rowScatterAdd_apply). Two row scatter-adds of different widths at
  the same index column are thereby sums over one and the same set of edges.
-/
import Idealize.ShloMosaic.PureOps.Ideal
import Idealize.ShloMosaic.Lib.ValueIdx

noncomputable section

open scoped BigOperators

namespace Idealize.ShloMosaic.RowScatterSum

open Idealize.ShloMosaic Idealize.ShloMosaic.ValueIdx

variable {N R C w : ℕ}

/-- The edges whose index word, read signed, names row i. -/
def into (idx : IVec ⟨2, ![R, 1]⟩ w) (i : ℕ) : Finset (Fin R) :=
  Finset.univ.filter fun e => (idx (ix2 e (0 : Fin 1))).toInt = (i : ℤ)

theorem mem_into (idx : IVec ⟨2, ![R, 1]⟩ w) (i : ℕ) (e : Fin R) :
    e ∈ into idx i ↔ (idx (ix2 e (0 : Fin 1))).toInt = (i : ℤ) := by
  unfold into
  simp only [Finset.mem_filter, Finset.mem_univ, true_and]

/-- WHERE A ROW SCATTER LANDS, both ways: update element (e, c) lands on (i, j) iff the word of e is i and c = j. -/
theorem rows_lands_iff (d : ScatterDims ⟨2, ![N, C]⟩ ⟨2, ![R, 1]⟩ ⟨2, ![R, C]⟩)
    (h1 : d.updateWindowDims = ([1] : List (Fin 2))) (h2 : d.insertedWindowDims = ([0] : List (Fin 2)))
    (h3 : d.scatterDimsToOperandDims = ([0] : List (Fin 2))) (h4 : d.indexVectorDim = 1)
    (idx : IVec ⟨2, ![R, 1]⟩ w) (e : Fin R) (c : Fin C) (i : Fin N) (j : Fin C) :
    d.resultIdx? (ix2 e c) idx = some (ix2 i j) ↔ (idx (ix2 e (0 : Fin 1))).toInt = (i.val : ℤ) ∧ c = j := by
  obtain ⟨uw, iw, sd, iv, wf⟩ := d
  dsimp only at h1 h2 h3 h4
  subst h1 h2 h3 h4
  have h10 : (1 : Fin 2) ∉ ([0] : List (Fin 2)) := by decide
  have h00 : (0 : Fin 2) ∈ ([0] : List (Fin 2)) := List.mem_singleton.mpr rfl
  -- axis 0 is inserted and indexed: window coordinate 0, start the word of row e read signed
  have hw0 : (⟨[1], [0], [0], 1, wf⟩ : ScatterDims ⟨2, ![N, C]⟩ ⟨2, ![R, 1]⟩ ⟨2, ![R, C]⟩).window (ix2 e c) (0 : Fin 2) = 0 := by
    unfold ScatterDims.window
    exact dif_neg (by simp [Shape.kept])
  have hs0 : (⟨[1], [0], [0], 1, wf⟩ : ScatterDims ⟨2, ![N, C]⟩ ⟨2, ![R, 1]⟩ ⟨2, ![R, C]⟩).start (ix2 e c) idx (0 : Fin 2) = (idx (ix2 e (0 : Fin 1))).toInt := by
    unfold ScatterDims.start
    rw [dif_pos (show (0 : Fin 2) ∈ ([0] : List (Fin 2)) from h00)]
    refine congrArg (fun k => (idx k).toInt) ?_
    funext b; refine Fin.ext ?_
    match b with
    | ⟨0, _⟩ => rfl
    | ⟨1, _⟩ => rfl
  -- axis 1 is the window axis: start 0, window coordinate the update's column
  have hs1 : (⟨[1], [0], [0], 1, wf⟩ : ScatterDims ⟨2, ![N, C]⟩ ⟨2, ![R, 1]⟩ ⟨2, ![R, C]⟩).start (ix2 e c) idx (1 : Fin 2) = 0 := by
    unfold ScatterDims.start
    exact dif_neg h10
  have hw1 : (⟨[1], [0], [0], 1, wf⟩ : ScatterDims ⟨2, ![N, C]⟩ ⟨2, ![R, 1]⟩ ⟨2, ![R, C]⟩).window (ix2 e c) (1 : Fin 2) = c.val := by
    unfold ScatterDims.window
    rw [dif_pos (show (1 : Fin 2) ∈ (⟨[1], [0], [0], 1, wf⟩ : ScatterDims ⟨2, ![N, C]⟩ ⟨2, ![R, 1]⟩ ⟨2, ![R, C]⟩).sKept by
      simp [ScatterDims.sKept, Shape.kept, List.mem_filter])]
    rfl
  generalize (⟨[1], [0], [0], 1, wf⟩ : ScatterDims ⟨2, ![N, C]⟩ ⟨2, ![R, 1]⟩ ⟨2, ![R, C]⟩) = D at hw0 hs0 hs1 hw1 ⊢
  have two : ∀ a : Fin 2, a = 0 ∨ a = 1 := by decide
  have hi := i.isLt
  have hc := c.isLt
  unfold ScatterDims.resultIdx?
  constructor
  · intro hl
    split at hl
    · next h =>
      have b0 := (h (0 : Fin 2)).1
      have e0 : (D.start (ix2 e c) idx (0 : Fin 2) + ((D.window (ix2 e c) (0 : Fin 2) : ℕ) : ℤ)).toNat = i.val :=
        congrArg Fin.val (congrFun (Option.some.inj hl) (0 : Fin 2))
      have e1 : (D.start (ix2 e c) idx (1 : Fin 2) + ((D.window (ix2 e c) (1 : Fin 2) : ℕ) : ℤ)).toNat = j.val :=
        congrArg Fin.val (congrFun (Option.some.inj hl) (1 : Fin 2))
      rw [hw0, hs0] at b0 e0
      rw [hw1, hs1] at e1
      exact ⟨by omega, Fin.ext (by omega)⟩
    · cases hl
  · rintro ⟨he, rfl⟩
    have hall : ∀ a, 0 ≤ D.start (ix2 e c) idx a + ((D.window (ix2 e c) a : ℕ) : ℤ)
        ∧ D.start (ix2 e c) idx a + ((D.window (ix2 e c) a : ℕ) : ℤ) < ((⟨2, ![N, C]⟩ : Shape).size a : ℤ) := by
      intro a
      rcases two a with rfl | rfl
      · rw [hw0, hs0, he]
        show 0 ≤ (i.val : ℤ) + ((0 : ℕ) : ℤ) ∧ (i.val : ℤ) + ((0 : ℕ) : ℤ) < (N : ℤ)
        omega
      · rw [hw1, hs1]
        show 0 ≤ (0 : ℤ) + ((c.val : ℕ) : ℤ) ∧ (0 : ℤ) + ((c.val : ℕ) : ℤ) < (C : ℤ)
        omega
    rw [dif_pos hall]
    refine congrArg some (funext fun a => Fin.ext ?_)
    rcases two a with rfl | rfl
    · show (D.start (ix2 e c) idx (0 : Fin 2) + ((D.window (ix2 e c) (0 : Fin 2) : ℕ) : ℤ)).toNat = i.val
      rw [hw0, hs0, he]
      omega
    · show (D.start (ix2 e c) idx (1 : Fin 2) + ((D.window (ix2 e c) (1 : Fin 2) : ℕ) : ℤ)).toNat = c.val
      rw [hw1, hs1]
      omega

/-- THE ROW SCATTER-ADD AT (i, j): the operand there plus the sum, over the edges whose word is i, of the updates'
    column j. -/
theorem rowScatterAdd_apply {φ : FTy} (d : ScatterDims ⟨2, ![N, C]⟩ ⟨2, ![R, 1]⟩ ⟨2, ![R, C]⟩)
    (h1 : d.updateWindowDims = ([1] : List (Fin 2))) (h2 : d.insertedWindowDims = ([0] : List (Fin 2)))
    (h3 : d.scatterDimsToOperandDims = ([0] : List (Fin 2))) (h4 : d.indexVectorDim = 1)
    (x : FVec Ideal ⟨2, ![N, C]⟩ φ) (idx : IVec ⟨2, ![R, 1]⟩ w) (u : FVec Ideal ⟨2, ![R, C]⟩ φ) (i : Fin N) (j : Fin C) :
    Host.scatterAdd (F := Ideal) d x idx u (ix2 i j) = x (ix2 i j) + ∑ e ∈ into idx i.val, u (ix2 e j) := by
  show Ideal.hostScatterAdd d x idx u (ix2 i j) = _
  unfold Ideal.hostScatterAdd
  refine congrArg (x (ix2 i j) + ·) (Finset.sum_bij (fun e _ => ix2 e j) ?_ ?_ ?_ ?_).symm
  · intro e he
    rw [Finset.mem_filter]
    exact ⟨Finset.mem_univ _, (rows_lands_iff d h1 h2 h3 h4 idx e j i j).mpr ⟨(mem_into idx i.val e).mp he, rfl⟩⟩
  · intro e _ e' _ hee
    exact congrFun hee 0
  · intro v hv
    rw [Finset.mem_filter] at hv
    have hv2 := hv.2
    rw [eq_ix2 v] at hv2
    obtain ⟨h0, h1'⟩ := (rows_lands_iff d h1 h2 h3 h4 idx (v 0) (v 1) i j).mp hv2
    refine ⟨v 0, (mem_into idx i.val (v 0)).mpr h0, ?_⟩
    rw [← h1']
    exact (eq_ix2 v).symm
  · intro e _
    rfl

end Idealize.ShloMosaic.RowScatterSum

end
-- ==== Proof.LibFlatScatterSum.lean ====
/-
  A FLAT SCATTER-ADD READ AT AN ENTRY, AS A SUM OVER EDGES. A general lemma file: it names no program.

  A flat scatter-add (no update window axes, inserted_window_dims [0], scatter_dims_to_operand_dims [0],
  index_vector_dim 1) of updates u : [R] into an operand x : [N] at a column of index words idx : [R, 1] sends update
  element e to operand entry idx[e, 0], the word read signed, and drops it when that entry is outside [0, N). So update
  e lands on entry i exactly when the word of e, read signed, is i (flat_lands_iff), and at exact real arithmetic the
  scatter-add reads x i plus the sum of u e over the edges whose word is i (flatScatterAdd_apply): the same set of edges
  a row scatter-add at the same index column sums over, so a column of a row scatter-add and a flat scatter-add of
  that column are sums over one set (column_eq_flat).
-/
import Idealize.ShloMosaic.PureOps.Ideal
import Idealize.ShloMosaic.Lib.ValueIdx
import proofs.«156760_j89936615178647_2_alg».proof.Proof.LibRowScatterSum

noncomputable section

open scoped BigOperators

namespace Idealize.ShloMosaic.FlatScatterSum

open Idealize.ShloMosaic Idealize.ShloMosaic.ValueIdx Idealize.ShloMosaic.RowScatterSum

variable {N R C w : ℕ}

/-- WHERE A FLAT SCATTER LANDS, both ways: update element e lands on entry i iff the word of e, read signed, is i. -/
theorem flat_lands_iff (d : ScatterDims ⟨1, ![N]⟩ ⟨2, ![R, 1]⟩ ⟨1, ![R]⟩)
    (h1 : d.updateWindowDims = ([] : List (Fin 1))) (h2 : d.insertedWindowDims = ([0] : List (Fin 1)))
    (h3 : d.scatterDimsToOperandDims = ([0] : List (Fin 1))) (h4 : d.indexVectorDim = 1)
    (idx : IVec ⟨2, ![R, 1]⟩ w) (e : Fin R) (i : Fin N) :
    d.resultIdx? (ix1 e) idx = some (ix1 i) ↔ (idx (ix2 e (0 : Fin 1))).toInt = (i.val : ℤ) := by
  obtain ⟨uw, iw, sd, iv, wf⟩ := d
  dsimp only at h1 h2 h3 h4
  subst h1 h2 h3 h4
  -- the one operand axis is inserted and indexed: window coordinate 0, start the word of edge e read signed
  have hw0 : (⟨[], [0], [0], 1, wf⟩ : ScatterDims ⟨1, ![N]⟩ ⟨2, ![R, 1]⟩ ⟨1, ![R]⟩).window (ix1 e) (0 : Fin 1) = 0 := by
    unfold ScatterDims.window
    exact dif_neg (by simp [Shape.kept])
  have hs0 : (⟨[], [0], [0], 1, wf⟩ : ScatterDims ⟨1, ![N]⟩ ⟨2, ![R, 1]⟩ ⟨1, ![R]⟩).start (ix1 e) idx (0 : Fin 1) = (idx (ix2 e (0 : Fin 1))).toInt := by
    unfold ScatterDims.start
    rw [dif_pos (show (0 : Fin 1) ∈ ([0] : List (Fin 1)) from List.mem_singleton.mpr rfl)]
    refine congrArg (fun k => (idx k).toInt) ?_
    funext b; refine Fin.ext ?_
    match b with
    | ⟨0, _⟩ => rfl
    | ⟨1, _⟩ => rfl
  generalize (⟨[], [0], [0], 1, wf⟩ : ScatterDims ⟨1, ![N]⟩ ⟨2, ![R, 1]⟩ ⟨1, ![R]⟩) = D at hw0 hs0 ⊢
  have one : ∀ a : Fin 1, a = 0 := by decide
  have hi := i.isLt
  unfold ScatterDims.resultIdx?
  constructor
  · intro hl
    split at hl
    · next h =>
      have b0 := (h (0 : Fin 1)).1
      have e0 : (D.start (ix1 e) idx (0 : Fin 1) + ((D.window (ix1 e) (0 : Fin 1) : ℕ) : ℤ)).toNat = i.val :=
        congrArg Fin.val (congrFun (Option.some.inj hl) (0 : Fin 1))
      rw [hw0, hs0] at b0 e0
      omega
    · cases hl
  · intro he
    have hall : ∀ a, 0 ≤ D.start (ix1 e) idx a + ((D.window (ix1 e) a : ℕ) : ℤ)
        ∧ D.start (ix1 e) idx a + ((D.window (ix1 e) a : ℕ) : ℤ) < ((⟨1, ![N]⟩ : Shape).size a : ℤ) := by
      intro a
      rw [one a, hw0, hs0, he]
      show 0 ≤ (i.val : ℤ) + ((0 : ℕ) : ℤ) ∧ (i.val : ℤ) + ((0 : ℕ) : ℤ) < (N : ℤ)
      omega
    rw [dif_pos hall]
    refine congrArg some (funext fun a => Fin.ext ?_)
    rw [one a]
    show (D.start (ix1 e) idx (0 : Fin 1) + ((D.window (ix1 e) (0 : Fin 1) : ℕ) : ℤ)).toNat = i.val
    rw [hw0, hs0, he]
    omega

/-- THE FLAT SCATTER-ADD AT i: the operand there plus the sum, over the edges whose word is i, of the updates. -/
theorem flatScatterAdd_apply {φ : FTy} (d : ScatterDims ⟨1, ![N]⟩ ⟨2, ![R, 1]⟩ ⟨1, ![R]⟩)
    (h1 : d.updateWindowDims = ([] : List (Fin 1))) (h2 : d.insertedWindowDims = ([0] : List (Fin 1)))
    (h3 : d.scatterDimsToOperandDims = ([0] : List (Fin 1))) (h4 : d.indexVectorDim = 1)
    (x : FVec Ideal ⟨1, ![N]⟩ φ) (idx : IVec ⟨2, ![R, 1]⟩ w) (u : FVec Ideal ⟨1, ![R]⟩ φ) (i : Fin N) :
    Host.scatterAdd (F := Ideal) d x idx u (ix1 i) = x (ix1 i) + ∑ e ∈ into idx i.val, u (ix1 e) := by
  show Ideal.hostScatterAdd d x idx u (ix1 i) = _
  unfold Ideal.hostScatterAdd
  refine congrArg (x (ix1 i) + ·) (Finset.sum_bij (fun e _ => ix1 e) ?_ ?_ ?_ ?_).symm
  · intro e he
    rw [Finset.mem_filter]
    exact ⟨Finset.mem_univ _, (flat_lands_iff d h1 h2 h3 h4 idx e i).mpr ((mem_into idx i.val e).mp he)⟩
  · intro e _ e' _ hee
    exact congrFun hee 0
  · intro v hv
    rw [Finset.mem_filter] at hv
    have hv2 := hv.2
    rw [eq_ix1 v] at hv2
    exact ⟨v 0, (mem_into idx i.val (v 0)).mpr ((flat_lands_iff d h1 h2 h3 h4 idx (v 0) i).mp hv2), (eq_ix1 v).symm⟩
  · intro e _
    rfl

/-- A COLUMN OF A ROW SCATTER-ADD IS THE FLAT SCATTER-ADD OF THAT COLUMN: when the operands agree at the entry and
    column j of the row updates is the flat updates, the two scatter-adds at one index column agree at (i, j) and i. -/
theorem column_eq_flat {φ : FTy} (d₂ : ScatterDims ⟨2, ![N, C]⟩ ⟨2, ![R, 1]⟩ ⟨2, ![R, C]⟩)
    (a1 : d₂.updateWindowDims = ([1] : List (Fin 2))) (a2 : d₂.insertedWindowDims = ([0] : List (Fin 2)))
    (a3 : d₂.scatterDimsToOperandDims = ([0] : List (Fin 2))) (a4 : d₂.indexVectorDim = 1)
    (d₁ : ScatterDims ⟨1, ![N]⟩ ⟨2, ![R, 1]⟩ ⟨1, ![R]⟩)
    (b1 : d₁.updateWindowDims = ([] : List (Fin 1))) (b2 : d₁.insertedWindowDims = ([0] : List (Fin 1)))
    (b3 : d₁.scatterDimsToOperandDims = ([0] : List (Fin 1))) (b4 : d₁.indexVectorDim = 1)
    (x₂ : FVec Ideal ⟨2, ![N, C]⟩ φ) (x₁ : FVec Ideal ⟨1, ![N]⟩ φ) (idx : IVec ⟨2, ![R, 1]⟩ w)
    (u₂ : FVec Ideal ⟨2, ![R, C]⟩ φ) (u₁ : FVec Ideal ⟨1, ![R]⟩ φ) (i : Fin N) (j : Fin C)
    (hx : x₂ (ix2 i j) = x₁ (ix1 i)) (hu : ∀ e : Fin R, u₂ (ix2 e j) = u₁ (ix1 e)) :
    Host.scatterAdd (F := Ideal) d₂ x₂ idx u₂ (ix2 i j) = Host.scatterAdd (F := Ideal) d₁ x₁ idx u₁ (ix1 i) := by
  rw [rowScatterAdd_apply d₂ a1 a2 a3 a4, flatScatterAdd_apply d₁ b1 b2 b3 b4, hx]
  exact congrArg (x₁ (ix1 i) + ·) (Finset.sum_congr rfl fun e _ => hu e)

end Idealize.ShloMosaic.FlatScatterSum

end
-- ==== Proof.ScatterColumns.lean ====
/-
  A COLUMN OF THE PAIRED ROW SCATTER-ADD IS THE FLAT SCATTER-ADD OF THAT COLUMN. Pure: it names no program.

  Two update vectors p, q : [R] are each made a column [R, 1], joined side by side into [R, 2], and scatter-added by
  rows into zeros [N, 2] at an index column idx : [R, 1]; column c of the result, cut out as [N, 1] and flattened to
  [N], is read at node i as entry (i, c) of the row scatter-add: zero plus the sum of column c of the joined updates
  over the edges whose index word is i. Column 0 of the join is p and column 1 is q, and the flat scatter-add of p (or q) into
  zeros [N] at the same index column is zero plus the sum of p (or q) over the same edges. So the two agree, at exact
  real arithmetic, whatever the index words are.
-/
import Idealize.ShloMosaic.PureOps.Ideal
import Idealize.ShloMosaic.Lib.ValueIdx
import Idealize.ShloMosaic.Lib.Pipeline.Value
import proofs.«156760_j89936615178647_2_alg».proof.Proof.LibFlatScatterSum

noncomputable section

namespace PowerFlowSpec.ScatterColumns

open Idealize.ShloMosaic Idealize.ShloMosaic.ValueIdx Idealize.ShloMosaic.FlatScatterSum

variable {N R w : ℕ}

/-- A vector made a column, read at (e, 0). -/
theorem column_apply {α : Type} (hbc : (⟨1, ![R]⟩ : Shape).BroadcastsInDim ⟨2, ![R, 1]⟩ (![0] : Fin 1 → Fin 2))
    (p : (⟨1, ![R]⟩ : Shape).Idx → α) (e : Fin R) :
    broadcastInDim ⟨2, ![R, 1]⟩ ![0] hbc p (ix2 e (0 : Fin 1)) = p (ix1 e) :=
  broadcastInDim_apply _ hbc p _ (ix1 e) (fun a => match a with
    | ⟨0, _⟩ => by
        show e.val = if R = 1 then 0 else e.val
        have := e.isLt
        split <;> omega)

/-- A scalar broadcast to any shape reads the scalar everywhere. -/
theorem splat_apply {α : Type} {t : Shape} (hz : (⟨0, ![]⟩ : Shape).BroadcastsInDim t (![] : Fin 0 → Fin t.rank))
    (z : (⟨0, ![]⟩ : Shape).Idx → α) (j : t.Idx) : broadcastInDim t ![] hz z j = z ix0 :=
  broadcastInDim_apply _ hz z j ix0 (fun a => a.elim0)

/-- Two columns joined side by side: column 0 is the first. -/
theorem join_apply_zero {α : Type} (hcat : Shape.Concatenates [(⟨2, ![R, 1]⟩ : Shape), ⟨2, ![R, 1]⟩] ⟨2, ![R, 2]⟩ 1)
    (x y : (⟨2, ![R, 1]⟩ : Shape).Idx → α) (e : Fin R) :
    concatenate ⟨2, ![R, 2]⟩ 1 [⟨⟨2, ![R, 1]⟩, x⟩, ⟨⟨2, ![R, 1]⟩, y⟩] hcat (ix2 e (0 : Fin 2)) = x (ix2 e (0 : Fin 1)) :=
  concatenate_pair_apply_left (1 : Fin 2) x y hcat (ix2 e (0 : Fin 2)) rfl (ix2 e (0 : Fin 1)) (fun b => match b with
    | ⟨0, _⟩ => rfl
    | ⟨1, _⟩ => rfl)

/-- Two columns joined side by side: column 1 is the second. -/
theorem join_apply_one {α : Type} (hcat : Shape.Concatenates [(⟨2, ![R, 1]⟩ : Shape), ⟨2, ![R, 1]⟩] ⟨2, ![R, 2]⟩ 1)
    (x y : (⟨2, ![R, 1]⟩ : Shape).Idx → α) (e : Fin R) :
    concatenate ⟨2, ![R, 2]⟩ 1 [⟨⟨2, ![R, 1]⟩, x⟩, ⟨⟨2, ![R, 1]⟩, y⟩] hcat (ix2 e (1 : Fin 2)) = y (ix2 e (0 : Fin 1)) :=
  concatenate_pair_apply_right (1 : Fin 2) x y hcat (ix2 e (1 : Fin 2)) rfl rfl (ix2 e (0 : Fin 1)) (fun b hb => match b with
    | ⟨0, _⟩ => rfl
    | ⟨1, _⟩ => absurd rfl hb) rfl

/-- Column c of an [N, 2] array, cut out and flattened, read at node i, is the array at (i, c). -/
theorem cut_column_apply {α : Type} (c : Fin 2) (hsl : (⟨2, ![N, 2]⟩ : Shape).Slices ![0, c.val] ⟨2, ![N, 1]⟩)
    (hsc : (⟨2, ![N, 1]⟩ : Shape).ShapeCasts ⟨1, ![N]⟩) (x : (⟨2, ![N, 2]⟩ : Shape).Idx → α) (i : Fin N) :
    shapeCast ⟨1, ![N]⟩ (extractStridedSlice ⟨2, ![N, 1]⟩ ![0, c.val] x hsl) hsc (ix1 i) = x (ix2 i c) := by
  refine (shapeCast_apply _ hsc (ix1 i) (ix2 i (0 : Fin 1)) ?_).trans ?_
  · rewrite [Shape.rowMajor_val_two, Shape.rowMajor_val_one]
    show i.val * 1 + 0 = i.val
    omega
  · exact extractStridedSlice_apply ![0, c.val] x hsl (ix2 i (0 : Fin 1)) (ix2 i c) (fun a => match a with
      | ⟨0, _⟩ => by show i.val = 0 + i.val; omega
      | ⟨1, _⟩ => by show c.val = c.val + 0; omega)

section
variable (d₂ : ScatterDims ⟨2, ![N, 2]⟩ ⟨2, ![R, 1]⟩ ⟨2, ![R, 2]⟩)
    (a1 : d₂.updateWindowDims = ([1] : List (Fin 2))) (a2 : d₂.insertedWindowDims = ([0] : List (Fin 2)))
    (a3 : d₂.scatterDimsToOperandDims = ([0] : List (Fin 2))) (a4 : d₂.indexVectorDim = 1)
    (d₁ : ScatterDims ⟨1, ![N]⟩ ⟨2, ![R, 1]⟩ ⟨1, ![R]⟩)
    (b1 : d₁.updateWindowDims = ([] : List (Fin 1))) (b2 : d₁.insertedWindowDims = ([0] : List (Fin 1)))
    (b3 : d₁.scatterDimsToOperandDims = ([0] : List (Fin 1))) (b4 : d₁.indexVectorDim = 1)
    (hz2 : (⟨0, ![]⟩ : Shape).BroadcastsInDim ⟨2, ![N, 2]⟩ (![] : Fin 0 → Fin 2))
    (hz1 : (⟨0, ![]⟩ : Shape).BroadcastsInDim ⟨1, ![N]⟩ (![] : Fin 0 → Fin 1))
    (hbc : (⟨1, ![R]⟩ : Shape).BroadcastsInDim ⟨2, ![R, 1]⟩ (![0] : Fin 1 → Fin 2))
    (hcat : Shape.Concatenates [(⟨2, ![R, 1]⟩ : Shape), ⟨2, ![R, 1]⟩] ⟨2, ![R, 2]⟩ 1)
    (hsc : (⟨2, ![N, 1]⟩ : Shape).ShapeCasts ⟨1, ![N]⟩)
    (z : FVec Ideal ⟨0, ![]⟩ .f32) (idx : IVec ⟨2, ![R, 1]⟩ w) (p q : FVec Ideal ⟨1, ![R]⟩ .f32)

include a1 a2 a3 a4 b1 b2 b3 b4

/-- COLUMN 0 of the paired row scatter-add into zeros is the flat scatter-add of the first update vector into zeros. -/
theorem column_zero (hsl : (⟨2, ![N, 2]⟩ : Shape).Slices ![0, 0] ⟨2, ![N, 1]⟩) :
    shapeCast ⟨1, ![N]⟩ (extractStridedSlice ⟨2, ![N, 1]⟩ ![0, 0]
        (Host.scatterAdd (F := Ideal) d₂ (broadcastInDim ⟨2, ![N, 2]⟩ ![] hz2 z) idx
          (concatenate ⟨2, ![R, 2]⟩ 1 [⟨⟨2, ![R, 1]⟩, broadcastInDim ⟨2, ![R, 1]⟩ ![0] hbc p⟩,
            ⟨⟨2, ![R, 1]⟩, broadcastInDim ⟨2, ![R, 1]⟩ ![0] hbc q⟩] hcat)) hsl) hsc
      = Host.scatterAdd (F := Ideal) d₁ (broadcastInDim ⟨1, ![N]⟩ ![] hz1 z) idx p := by
  funext j
  obtain ⟨i, rfl⟩ : ∃ i : Fin N, j = ix1 i := ⟨j 0, eq_ix1 j⟩
  refine (cut_column_apply (0 : Fin 2) hsl hsc _ i).trans ?_
  refine column_eq_flat d₂ a1 a2 a3 a4 d₁ b1 b2 b3 b4 _ _ idx _ _ i (0 : Fin 2) ?_ ?_
  · exact (splat_apply hz2 z _).trans (splat_apply hz1 z _).symm
  · intro e
    exact (join_apply_zero hcat _ _ e).trans (column_apply hbc p e)

/-- COLUMN 1 of the paired row scatter-add into zeros is the flat scatter-add of the second update vector into zeros. -/
theorem column_one (hsl : (⟨2, ![N, 2]⟩ : Shape).Slices ![0, 1] ⟨2, ![N, 1]⟩) :
    shapeCast ⟨1, ![N]⟩ (extractStridedSlice ⟨2, ![N, 1]⟩ ![0, 1]
        (Host.scatterAdd (F := Ideal) d₂ (broadcastInDim ⟨2, ![N, 2]⟩ ![] hz2 z) idx
          (concatenate ⟨2, ![R, 2]⟩ 1 [⟨⟨2, ![R, 1]⟩, broadcastInDim ⟨2, ![R, 1]⟩ ![0] hbc p⟩,
            ⟨⟨2, ![R, 1]⟩, broadcastInDim ⟨2, ![R, 1]⟩ ![0] hbc q⟩] hcat)) hsl) hsc
      = Host.scatterAdd (F := Ideal) d₁ (broadcastInDim ⟨1, ![N]⟩ ![] hz1 z) idx q := by
  funext j
  obtain ⟨i, rfl⟩ : ∃ i : Fin N, j = ix1 i := ⟨j 0, eq_ix1 j⟩
  refine (cut_column_apply (1 : Fin 2) hsl hsc _ i).trans ?_
  refine column_eq_flat d₂ a1 a2 a3 a4 d₁ b1 b2 b3 b4 _ _ idx _ _ i (1 : Fin 2) ?_ ?_
  · exact (splat_apply hz2 z _).trans (splat_apply hz1 z _).symm
  · intro e
    exact (join_apply_one hcat _ _ e).trans (column_apply hbc q e)

end

end PowerFlowSpec.ScatterColumns

end
-- ==== Proof.Bridge.lean ====
/-
  THE TWO RESULTS ARE ONE FUNCTION OF THE ARGUMENTS, at exact real arithmetic.

  The kernel's program ends at the loss of four node vectors and the two columns of ONE row scatter-add of the two flows
  (computed on the 25000 × 128 relayout and flattened back); the reference ends at the loss of the same four node
  vectors and TWO flat scatter-adds of the two flows (computed on the edges). The flows agree because they are
  entrywise (a reshape there and back changes nothing) and the host's cosine and sine are the vector unit's; the sums
  agree because column c of the row scatter-add and the flat scatter-add of column c sum the same updates over the same
  edges, whatever the index words. No finiteness of the inputs is used.
-/
import proofs.«156760_j89936615178647_2_alg».proof.Proof.KernelTail
import proofs.«156760_j89936615178647_2_alg».proof.Proof.ScatterColumns
import proofs.«156760_j89936615178647_2_alg».proof.Proof.Gen.ReferenceIdeal.Read

set_option maxRecDepth 16384

noncomputable section

namespace Cert.Bridge

open Idealize.ShloMosaic PowerFlowSpec

/-- The reference's zero node vector, source column and flat scatter-add, as one function of the sources and the updates. -/
def flatSums (src : IVec Cert.ReferenceIdeal.S3200000 32) (u : FVec Ideal Cert.ReferenceIdeal.S3200000 .f32) : FVec Ideal Cert.ReferenceIdeal.S100000 .f32 :=
  Host.scatterAdd Cert.ReferenceIdeal.scatter_S100000_S3200000x1_S3200000_n_0_0_1
    (broadcastInDim Cert.ReferenceIdeal.S100000 ![] Cert.ReferenceIdeal.Facts₀.bcast_S_S100000 (constant Cert.ReferenceIdeal.S_ .f32 0x00000000#32))
    (broadcastInDim Cert.ReferenceIdeal.S3200000x1 ![0] Cert.ReferenceIdeal.Facts₀.bcast_S3200000_S3200000x1_0 src) u

/-- Column 0 of the kernel's paired sums of the relaid flows is the flat sum of the active flow on the edges. -/
theorem column0_eq (src : IVec Cert.KernelIdeal.S3200000 32) (vv ang g b : FVec Ideal Cert.KernelIdeal.S3200000 .f32) :
    Cert.KernelIdeal.Tail.column0 (Cert.KernelIdeal.Tail.pairedSums src
        (Cert.KernelIdeal.Tail.edgeColumn (activeFlow (F := Ideal) (shapeCast Cert.KernelIdeal.S25000x128 vv Cert.KernelIdeal.Facts₀.shapeCasts_S3200000_S25000x128) (shapeCast Cert.KernelIdeal.S25000x128 ang Cert.KernelIdeal.Facts₀.shapeCasts_S3200000_S25000x128) (shapeCast Cert.KernelIdeal.S25000x128 g Cert.KernelIdeal.Facts₀.shapeCasts_S3200000_S25000x128) (shapeCast Cert.KernelIdeal.S25000x128 b Cert.KernelIdeal.Facts₀.shapeCasts_S3200000_S25000x128)))
        (Cert.KernelIdeal.Tail.edgeColumn (reactiveFlow (F := Ideal) (shapeCast Cert.KernelIdeal.S25000x128 vv Cert.KernelIdeal.Facts₀.shapeCasts_S3200000_S25000x128) (shapeCast Cert.KernelIdeal.S25000x128 ang Cert.KernelIdeal.Facts₀.shapeCasts_S3200000_S25000x128) (shapeCast Cert.KernelIdeal.S25000x128 g Cert.KernelIdeal.Facts₀.shapeCasts_S3200000_S25000x128) (shapeCast Cert.KernelIdeal.S25000x128 b Cert.KernelIdeal.Facts₀.shapeCasts_S3200000_S25000x128))))
      = flatSums src (activeFlow vv ang g b) := by
  unfold Cert.KernelIdeal.Tail.column0 Cert.KernelIdeal.Tail.pairedSums Cert.KernelIdeal.Tail.edgeColumn flatSums
  rw [activeFlow_there_and_back, reactiveFlow_there_and_back]
  exact ScatterColumns.column_zero (N := 100000) (R := 3200000) (w := 32)
    Cert.KernelIdeal.scatter_S100000x2_S3200000x1_S3200000x2_1_0_0_1 rfl rfl rfl rfl
    Cert.ReferenceIdeal.scatter_S100000_S3200000x1_S3200000_n_0_0_1 rfl rfl rfl rfl
    Cert.KernelIdeal.Facts₀.bcast_S_S100000x2 Cert.ReferenceIdeal.Facts₀.bcast_S_S100000 Cert.KernelIdeal.Facts₀.bcast_S3200000_S3200000x1_0
    Cert.KernelIdeal.Facts₀.concatenates_S3200000x1_S3200000x1_S3200000x2_d1 Cert.KernelIdeal.Facts₀.shapeCasts_S100000x1_S100000
    (constant Cert.KernelIdeal.S_ .f32 0x00000000#32) _ (activeFlow vv ang g b) (reactiveFlow vv ang g b)
    Cert.KernelIdeal.Facts₀.slices_S100000x2_S100000x1_0_0

/-- Column 1 of the kernel's paired sums of the relaid flows is the flat sum of the reactive flow on the edges. -/
theorem column1_eq (src : IVec Cert.KernelIdeal.S3200000 32) (vv ang g b : FVec Ideal Cert.KernelIdeal.S3200000 .f32) :
    Cert.KernelIdeal.Tail.column1 (Cert.KernelIdeal.Tail.pairedSums src
        (Cert.KernelIdeal.Tail.edgeColumn (activeFlow (F := Ideal) (shapeCast Cert.KernelIdeal.S25000x128 vv Cert.KernelIdeal.Facts₀.shapeCasts_S3200000_S25000x128) (shapeCast Cert.KernelIdeal.S25000x128 ang Cert.KernelIdeal.Facts₀.shapeCasts_S3200000_S25000x128) (shapeCast Cert.KernelIdeal.S25000x128 g Cert.KernelIdeal.Facts₀.shapeCasts_S3200000_S25000x128) (shapeCast Cert.KernelIdeal.S25000x128 b Cert.KernelIdeal.Facts₀.shapeCasts_S3200000_S25000x128)))
        (Cert.KernelIdeal.Tail.edgeColumn (reactiveFlow (F := Ideal) (shapeCast Cert.KernelIdeal.S25000x128 vv Cert.KernelIdeal.Facts₀.shapeCasts_S3200000_S25000x128) (shapeCast Cert.KernelIdeal.S25000x128 ang Cert.KernelIdeal.Facts₀.shapeCasts_S3200000_S25000x128) (shapeCast Cert.KernelIdeal.S25000x128 g Cert.KernelIdeal.Facts₀.shapeCasts_S3200000_S25000x128) (shapeCast Cert.KernelIdeal.S25000x128 b Cert.KernelIdeal.Facts₀.shapeCasts_S3200000_S25000x128))))
      = flatSums src (reactiveFlow vv ang g b) := by
  unfold Cert.KernelIdeal.Tail.column1 Cert.KernelIdeal.Tail.pairedSums Cert.KernelIdeal.Tail.edgeColumn flatSums
  rw [activeFlow_there_and_back, reactiveFlow_there_and_back]
  exact ScatterColumns.column_one (N := 100000) (R := 3200000) (w := 32)
    Cert.KernelIdeal.scatter_S100000x2_S3200000x1_S3200000x2_1_0_0_1 rfl rfl rfl rfl
    Cert.ReferenceIdeal.scatter_S100000_S3200000x1_S3200000_n_0_0_1 rfl rfl rfl rfl
    Cert.KernelIdeal.Facts₀.bcast_S_S100000x2 Cert.ReferenceIdeal.Facts₀.bcast_S_S100000 Cert.KernelIdeal.Facts₀.bcast_S3200000_S3200000x1_0
    Cert.KernelIdeal.Facts₀.concatenates_S3200000x1_S3200000x1_S3200000x2_d1 Cert.KernelIdeal.Facts₀.shapeCasts_S100000x1_S100000
    (constant Cert.KernelIdeal.S_ .f32 0x00000000#32) _ (activeFlow vv ang g b) (reactiveFlow vv ang g b)
    Cert.KernelIdeal.Facts₀.slices_S100000x2_S100000x1_0_1

section Reference
open Cert.ReferenceIdeal Cert.ReferenceIdeal.Read

variable (x0 x1 : (⟨S100000x6, .f32⟩ : BufTy).Contents (Elt Ideal)) (x2 : (⟨S2x3200000, .i32⟩ : BufTy).Contents (Elt Ideal))
  (x3 : (⟨S3200000x2, .f32⟩ : BufTy).Contents (Elt Ideal)) (x4 : (⟨S100000x6, .i1⟩ : BufTy).Contents (Elt Ideal))

/-- The reference's two flows are the entrywise flows of its edge vectors. -/
theorem ref_active : val_main_v56 (F := Ideal) x0 x1 x2 x3 x4
    = activeFlow (F := Ideal) (s := S3200000) (val_main_v52 (F := Ideal) x0 x1 x2 x4) (val_main_v49 (F := Ideal) x0 x1 x2 x4) (val_main_v14 (F := Ideal) x3) (val_main_v16 (F := Ideal) x3) := rfl
theorem ref_reactive : val_main_v60 (F := Ideal) x0 x1 x2 x3 x4
    = reactiveFlow (F := Ideal) (s := S3200000) (val_main_v52 (F := Ideal) x0 x1 x2 x4) (val_main_v49 (F := Ideal) x0 x1 x2 x4) (val_main_v14 (F := Ideal) x3) (val_main_v16 (F := Ideal) x3) := rfl

/-- Its two node sums are the flat sums of its two flows at its sources. -/
theorem ref_sumP : val_main_v63 (F := Ideal) x0 x1 x2 x3 x4 = flatSums (val_main_v18 (F := Ideal) x2) (val_main_v56 (F := Ideal) x0 x1 x2 x3 x4) := rfl
theorem ref_sumQ : val_main_v66 (F := Ideal) x0 x1 x2 x3 x4 = flatSums (val_main_v18 (F := Ideal) x2) (val_main_v60 (F := Ideal) x0 x1 x2 x3 x4) := rfl

/-- Its result is the loss of its six node vectors. -/
theorem ref_loss : val_main_v77 (F := Ideal) x0 x1 x2 x3 x4
    = imbalanceLoss (F := Ideal) Facts₀.reducesTo_S100000_S_d0 Facts₀.h_S_ (val_main_v6 (F := Ideal) x0 x1 x4) (val_main_v10 (F := Ideal) x0 x1 x4)
        (val_main_v8 (F := Ideal) x0 x1 x4) (val_main_v12 (F := Ideal) x0 x1 x4)
        (val_main_v63 (F := Ideal) x0 x1 x2 x3 x4) (val_main_v66 (F := Ideal) x0 x1 x2 x3 x4) := rfl

/-- THE BRIDGE: the kernel's shape of the result, at the reference's stages of the arguments, is the reference's result. -/
theorem loss_eq :
    imbalanceLoss (F := Ideal) Cert.KernelIdeal.Facts₀.reducesTo_S100000_S_d0 Cert.KernelIdeal.Facts₀.h_S_
        (val_main_v6 (F := Ideal) x0 x1 x4) (val_main_v10 (F := Ideal) x0 x1 x4) (val_main_v8 (F := Ideal) x0 x1 x4) (val_main_v12 (F := Ideal) x0 x1 x4)
        (Cert.KernelIdeal.Tail.column0 (Cert.KernelIdeal.Tail.pairedSums (val_main_v18 (F := Ideal) x2)
          (Cert.KernelIdeal.Tail.edgeColumn (activeFlow (F := Ideal) (shapeCast Cert.KernelIdeal.S25000x128 (val_main_v52 (F := Ideal) x0 x1 x2 x4) Cert.KernelIdeal.Facts₀.shapeCasts_S3200000_S25000x128) (shapeCast Cert.KernelIdeal.S25000x128 (val_main_v49 (F := Ideal) x0 x1 x2 x4) Cert.KernelIdeal.Facts₀.shapeCasts_S3200000_S25000x128) (shapeCast Cert.KernelIdeal.S25000x128 (val_main_v14 (F := Ideal) x3) Cert.KernelIdeal.Facts₀.shapeCasts_S3200000_S25000x128) (shapeCast Cert.KernelIdeal.S25000x128 (val_main_v16 (F := Ideal) x3) Cert.KernelIdeal.Facts₀.shapeCasts_S3200000_S25000x128)))
          (Cert.KernelIdeal.Tail.edgeColumn (reactiveFlow (F := Ideal) (shapeCast Cert.KernelIdeal.S25000x128 (val_main_v52 (F := Ideal) x0 x1 x2 x4) Cert.KernelIdeal.Facts₀.shapeCasts_S3200000_S25000x128) (shapeCast Cert.KernelIdeal.S25000x128 (val_main_v49 (F := Ideal) x0 x1 x2 x4) Cert.KernelIdeal.Facts₀.shapeCasts_S3200000_S25000x128) (shapeCast Cert.KernelIdeal.S25000x128 (val_main_v14 (F := Ideal) x3) Cert.KernelIdeal.Facts₀.shapeCasts_S3200000_S25000x128) (shapeCast Cert.KernelIdeal.S25000x128 (val_main_v16 (F := Ideal) x3) Cert.KernelIdeal.Facts₀.shapeCasts_S3200000_S25000x128)))))
        (Cert.KernelIdeal.Tail.column1 (Cert.KernelIdeal.Tail.pairedSums (val_main_v18 (F := Ideal) x2)
          (Cert.KernelIdeal.Tail.edgeColumn (activeFlow (F := Ideal) (shapeCast Cert.KernelIdeal.S25000x128 (val_main_v52 (F := Ideal) x0 x1 x2 x4) Cert.KernelIdeal.Facts₀.shapeCasts_S3200000_S25000x128) (shapeCast Cert.KernelIdeal.S25000x128 (val_main_v49 (F := Ideal) x0 x1 x2 x4) Cert.KernelIdeal.Facts₀.shapeCasts_S3200000_S25000x128) (shapeCast Cert.KernelIdeal.S25000x128 (val_main_v14 (F := Ideal) x3) Cert.KernelIdeal.Facts₀.shapeCasts_S3200000_S25000x128) (shapeCast Cert.KernelIdeal.S25000x128 (val_main_v16 (F := Ideal) x3) Cert.KernelIdeal.Facts₀.shapeCasts_S3200000_S25000x128)))
          (Cert.KernelIdeal.Tail.edgeColumn (reactiveFlow (F := Ideal) (shapeCast Cert.KernelIdeal.S25000x128 (val_main_v52 (F := Ideal) x0 x1 x2 x4) Cert.KernelIdeal.Facts₀.shapeCasts_S3200000_S25000x128) (shapeCast Cert.KernelIdeal.S25000x128 (val_main_v49 (F := Ideal) x0 x1 x2 x4) Cert.KernelIdeal.Facts₀.shapeCasts_S3200000_S25000x128) (shapeCast Cert.KernelIdeal.S25000x128 (val_main_v14 (F := Ideal) x3) Cert.KernelIdeal.Facts₀.shapeCasts_S3200000_S25000x128) (shapeCast Cert.KernelIdeal.S25000x128 (val_main_v16 (F := Ideal) x3) Cert.KernelIdeal.Facts₀.shapeCasts_S3200000_S25000x128)))))
      = val_main_v77 (F := Ideal) x0 x1 x2 x3 x4 := by
  rw [ref_loss, ref_sumP, ref_sumQ, ref_active, ref_reactive]
  exact congrArg₂ (imbalanceLoss (F := Ideal) _ _ _ _ _ _) (column0_eq _ _ _ _ _) (column1_eq _ _ _ _ _)

end Reference

end Cert.Bridge

end
-- ==== Proof.KernelValue.lean ====
/-
  THE KERNEL'S RESULT as a function of the arguments, at exact real arithmetic.

  The frame run leaves the result buffer at the lines after the region applied to the region's exit contents: every
  buffer as the lines before the region left it, but the two output arrays at the flows of the four input arrays. The
  lines after the region are the loss of four node vectors and the two columns of the paired sums; the lines before it are
  the reference's own first stages. Joined by the bridge, the result is the reference's result stage of the arguments.
-/
import proofs.«156760_j89936615178647_2_alg».proof.Proof.EdgeFlows
import proofs.«156760_j89936615178647_2_alg».proof.Proof.HeadReads
import proofs.«156760_j89936615178647_2_alg».proof.Proof.KernelTail
import proofs.«156760_j89936615178647_2_alg».proof.Proof.Bridge

set_option maxRecDepth 16384

noncomputable section

namespace Cert.KernelIdeal.Result

open Cert.KernelIdeal Cert.KernelIdeal.Gen PowerFlowSpec
open Idealize.ShloMosaic Idealize.ShloMosaic.TcCoe Idealize.SL.Sem Idealize.ShloMosaic.StableHlo

/-- The lines after the region from contents W whose seven buffers they read are known. -/
theorem tail_of {F : FTy → Type} [FloatOps F] (W : Valuation τ sig (Elt F))
    {pg pd qg qd : FVec F S100000 .f32} {src : IVec S3200000 32} {P Q : FVec F S25000x128 .f32}
    (h6 : W (Proc.devRef .tc main_v6) = pg) (h10 : W (Proc.devRef .tc main_v10) = pd)
    (h8 : W (Proc.devRef .tc main_v8) = qg) (h12 : W (Proc.devRef .tc main_v12) = qd)
    (h18 : W (Proc.devRef .tc main_v18) = src)
    (hP : W (Proc.devRef .tc main_v55_0) = P) (hQ : W (Proc.devRef .tc main_v55_1) = Q) :
    StableHlo.after (List.flatten [hostOps1]) W (Proc.devRef .tc main_v78)
      = imbalanceLoss reducesTo_S100000_S_d0 h_S_ pg pd qg qd
          (Tail.column0 (Tail.pairedSums src (Tail.edgeColumn P) (Tail.edgeColumn Q)))
          (Tail.column1 (Tail.pairedSums src (Tail.edgeColumn P) (Tail.edgeColumn Q))) := by
  subst h6 h10 h8 h12 h18 hP hQ
  exact Tail.of_contents W

/-- The bridge with every piece a variable: node vectors, sources, the two output arrays and the four input arrays, each
    known as a function of the arguments. -/
theorem glue {pg pd qg qd : FVec Ideal S100000 .f32} {src : IVec S3200000 32} {P Q a0 a1 a2 a3 : FVec Ideal S25000x128 .f32}
    (x0 x1 : (⟨Cert.ReferenceIdeal.S100000x6, .f32⟩ : BufTy).Contents (Elt Ideal))
    (x2 : (⟨Cert.ReferenceIdeal.S2x3200000, .i32⟩ : BufTy).Contents (Elt Ideal))
    (x3 : (⟨Cert.ReferenceIdeal.S3200000x2, .f32⟩ : BufTy).Contents (Elt Ideal))
    (x4 : (⟨Cert.ReferenceIdeal.S100000x6, .i1⟩ : BufTy).Contents (Elt Ideal))
    (hpg : pg = Cert.ReferenceIdeal.Read.val_main_v6 (F := Ideal) x0 x1 x4) (hpd : pd = Cert.ReferenceIdeal.Read.val_main_v10 (F := Ideal) x0 x1 x4)
    (hqg : qg = Cert.ReferenceIdeal.Read.val_main_v8 (F := Ideal) x0 x1 x4) (hqd : qd = Cert.ReferenceIdeal.Read.val_main_v12 (F := Ideal) x0 x1 x4)
    (hsrc : src = Cert.ReferenceIdeal.Read.val_main_v18 (F := Ideal) x2)
    (hP : P = activeFlow a0 a1 a2 a3) (hQ : Q = reactiveFlow a0 a1 a2 a3)
    (h0 : a0 = (shapeCast S25000x128 (Cert.ReferenceIdeal.Read.val_main_v52 (F := Ideal) x0 x1 x2 x4) shapeCasts_S3200000_S25000x128))
    (h1 : a1 = (shapeCast S25000x128 (Cert.ReferenceIdeal.Read.val_main_v49 (F := Ideal) x0 x1 x2 x4) shapeCasts_S3200000_S25000x128))
    (h2 : a2 = (shapeCast S25000x128 (Cert.ReferenceIdeal.Read.val_main_v14 (F := Ideal) x3) shapeCasts_S3200000_S25000x128))
    (h3 : a3 = (shapeCast S25000x128 (Cert.ReferenceIdeal.Read.val_main_v16 (F := Ideal) x3) shapeCasts_S3200000_S25000x128)) :
    imbalanceLoss (F := Ideal) reducesTo_S100000_S_d0 h_S_ pg pd qg qd
        (Tail.column0 (Tail.pairedSums src (Tail.edgeColumn P) (Tail.edgeColumn Q)))
        (Tail.column1 (Tail.pairedSums src (Tail.edgeColumn P) (Tail.edgeColumn Q)))
      = Cert.ReferenceIdeal.Read.val_main_v77 (F := Ideal) x0 x1 x2 x3 x4 := by
  subst hpg hpd hqg hqd hsrc hP hQ h0 h1 h2 h3
  exact Cert.Bridge.loss_eq x0 x1 x2 x3 x4

variable (m : (ℓ : Loc nD τ sig) → Buf (Elt Ideal) ℓ) (ρ : Dev nD → PrngReg)

/-- The result buffer after the lines after the region, from the region's exit contents. -/
theorem tail_value (c : Dev nD) :
    Pipeline.afterTail₀ cfgs (dats m) 0 (V0 m) [hostOps1] c main_v78
      = imbalanceLoss (F := Ideal) reducesTo_S100000_S_d0 h_S_ (V m c main_v6) (V m c main_v10) (V m c main_v8) (V m c main_v12)
          (Tail.column0 (Tail.pairedSums (V m c main_v18) (Tail.edgeColumn ((dats m 0 c).arrAt 4 cfg0.N)) (Tail.edgeColumn ((dats m 0 c).arrAt 5 cfg0.N))))
          (Tail.column1 (Tail.pairedSums (V m c main_v18) (Tail.edgeColumn ((dats m 0 c).arrAt 4 cfg0.N)) (Tail.edgeColumn ((dats m 0 c).arrAt 5 cfg0.N)))) := by
  unfold Pipeline.afterTail₀
  exact tail_of _
    (Pipeline.withArrays_of_ne _ c (V0 m c) _ main_v6 (by exact (by decide : ∀ w, Pipeline.arrRef spec0 w ≠ main_v6)))
    (Pipeline.withArrays_of_ne _ c (V0 m c) _ main_v10 (by exact (by decide : ∀ w, Pipeline.arrRef spec0 w ≠ main_v10)))
    (Pipeline.withArrays_of_ne _ c (V0 m c) _ main_v8 (by exact (by decide : ∀ w, Pipeline.arrRef spec0 w ≠ main_v8)))
    (Pipeline.withArrays_of_ne _ c (V0 m c) _ main_v12 (by exact (by decide : ∀ w, Pipeline.arrRef spec0 w ≠ main_v12)))
    (Pipeline.withArrays_of_ne _ c (V0 m c) _ main_v18 (by exact (by decide : ∀ w, Pipeline.arrRef spec0 w ≠ main_v18)))
    (Pipeline.withArrays_arr spec0 launch0.win.arr_inj c _ _ 4)
    (Pipeline.withArrays_arr spec0 launch0.win.arr_inj c _ _ 5)

/-- THE KERNEL'S RESULT is the reference's result stage of the arguments. -/
theorem kernel_value (c : Dev nD) :
    Pipeline.afterTail₀ cfgs (dats m) 0 (V0 m) [hostOps1] c main_v78
      = Cert.ReferenceIdeal.Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (tail_value m c).trans (glue _ _ _ _ _
    (HeadReads.head_pg (fun b => m (c, b))) (HeadReads.head_pd (fun b => m (c, b)))
    (HeadReads.head_qg (fun b => m (c, b))) (HeadReads.head_qd (fun b => m (c, b)))
    (HeadReads.head_src (fun b => m (c, b)))
    (EdgeFlows.final4 m c) (EdgeFlows.final5 m c)
    (HeadReads.head_vv (fun b => m (c, b))) (HeadReads.head_ang (fun b => m (c, b)))
    (HeadReads.head_g (fun b => m (c, b))) (HeadReads.head_b (fun b => m (c, b))))

/-- THE RUN, READ: every weakly fair execution terminates with the result buffer at the reference's result stage of the
    arguments and the arguments unchanged. -/
theorem run : θ_run defs (onTc (τ := τ) (main (F := Ideal))) ⟨m, fun _ => 0, ρ⟩ fun r => ∀ c : Dev nD,
      r.2.mem ((c.tc : Thread nD τ).loc main_v78)
        = Cert.ReferenceIdeal.Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v78 (Pipeline.mem_restRefs_of main_v78 (by decide) (by decide))).trans (kernel_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/-
  THE CERTIFICATE: the edge-flow kernel's loss against the reference's, equal at exact real arithmetic.

  Both programs take pred, target, edge_index, edge_attr and mask; choose pred or target entry by entry; read the
  voltage magnitudes, angles and the generated and demanded powers as columns; gather magnitudes and angles at each
  edge's two end nodes; and from vv = vm[src]·vm[dst], ang = va[src] − va[dst] and the line constants g, b form

      active = vv · (g · cos ang + b · sin ang),   reactive = vv · (g · sin ang − b · cos ang),

  sum each flow into its source node, and return the mean square of pg − pd − P plus the mean square of qg − qd − Q.
  The kernel's program computes the two flows in a tiled region on a 25000 × 128 relayout of the edges and sums them by
  ONE row scatter-add of the pair; the reference computes them on the edges with the host's cosine and sine and sums
  them by TWO flat scatter-adds. The modules beside this file show, in order: the region's two arrays are the flows of
  its four input arrays (EdgeFlows); those inputs and the node vectors are the reference's own first stages (HeadReads);
  the lines after the region are the loss of the node vectors and the paired sums' columns (KernelTail); a column of the
  paired sums is the flat sum (LibRowScatterSum, LibFlatScatterSum, ScatterColumns); hence one function (Bridge,
  KernelValue). The three frames are the generated ones (the reference's: its generated run with the result dropped);
  the idealization rewrote nothing, so it preserves the kernel trivially. The precondition is never opened.
-/
import proofs.«156760_j89936615178647_2_alg».proof.Defs
import proofs.«156760_j89936615178647_2_alg».proof.Proof.Gen.Kernel
import proofs.«156760_j89936615178647_2_alg».proof.Proof.Gen.Kernel.Skeleton
import proofs.«156760_j89936615178647_2_alg».proof.Proof.Gen.Kernel.Launch
import proofs.«156760_j89936615178647_2_alg».proof.Proof.Gen.Kernel.Points
import proofs.«156760_j89936615178647_2_alg».proof.Proof.Gen.Kernel.Frame
import proofs.«156760_j89936615178647_2_alg».proof.Proof.Gen.KernelIdeal
import proofs.«156760_j89936615178647_2_alg».proof.Proof.Gen.KernelIdeal.Skeleton
import proofs.«156760_j89936615178647_2_alg».proof.Proof.Gen.KernelIdeal.Launch
import proofs.«156760_j89936615178647_2_alg».proof.Proof.Gen.KernelIdeal.Points
import proofs.«156760_j89936615178647_2_alg».proof.Proof.Gen.KernelIdeal.Frame
import proofs.«156760_j89936615178647_2_alg».proof.Proof.Gen.ReferenceIdeal
import proofs.«156760_j89936615178647_2_alg».proof.Proof.Gen.ReferenceIdeal.Run
import proofs.«156760_j89936615178647_2_alg».proof.Proof.Gen.ReferenceIdeal.Read
import proofs.«156760_j89936615178647_2_alg».proof.Proof.Gen.Pre_finite_inputs
import proofs.«156760_j89936615178647_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel's frame and the idealized kernel's: generated whole. -/
theorem frame_kernel : Cert.frame_Kernel := fun m ρ _ => Cert.Kernel.Gen.frame m ρ
theorem frame_kernelIdeal : Cert.frame_KernelIdeal := fun m ρ _ => Cert.KernelIdeal.Gen.frame m ρ

/-- The reference's frame: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end, from memories agreeing on the arguments, at the reference's result stage of the
    arguments: the kernel's run read (KernelValue), the reference's generated run. -/
theorem algebraic : Cert.algebraic_KernelIdeal_ReferenceIdeal := by
  intro m ρ m' ρ' _ hagree
  refine ⟨fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
